-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_0)) (v2 : (c : Dev Cert.KernelIdeal.nD) → Buf (Elt Ideal) ((c.tc : Thread Cert.KernelIdeal.nD Cert.KernelIdeal.τ).loc Cert.KernelIdeal.main_v2_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v204) = v0 c
          ∧ r.2.mem ((c.tc : Thread Cert.ReferenceIdeal.nD Cert.ReferenceIdeal.τ).loc Cert.ReferenceIdeal.main_v204) = v1 c
          ∧ r.2.mem ((c.tc : Thread Cert.ReferenceIdeal.nD Cert.ReferenceIdeal.τ).loc Cert.ReferenceIdeal.main_v202) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S5x1024 : Shape := ⟨2, ![5, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S5x1024 : S_.BroadcastsInDim S5x1024 (![] : Fin 0 → Fin S5x1024.rank)
  reducesTo_S5x1024_S_d0_1 : S5x1024.ReducesTo [0, 1] S_

variable [Facts]

def fn_part1 {F : FTy → Type} [FloatOps F] (main_arg4 : FVec F S4096x1024 .f32) (main_arg5 : FVec F S5x1024 .f32) (main_arg6 : FVec F S5x1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S5x1024 .f32 := Host.absf main_arg5
  let main_cst_8 : FVec F S_ .f32 := constant S_ .f32 0x7F800000#32
  let main_v25 : FVec F S5x1024 .f32 := broadcastInDim S5x1024 ![] bcast_S_S5x1024 main_cst_8
  let main_v26 : IVec S5x1024 1 := cmpf .olt main_v24 main_v25
  let main_c_9 : IVec S_ 1 := constantI S_ 1 1#1
  let main_v27 : IVec S_ 1 := (fun x v => Host.reduce IntOp.andi x v reducesTo_S5x1024_S_d0_1 h_S_) main_v26 main_c_9
  let main_v28 : IVec S_ 1 := andi main_v23 main_v27
  let main_v29 : FVec F S5x1024 .f32 := Host.absf main_arg6
  let main_cst_10 : FVec F S_ .f32 := constant S_ .f32 0x7F800000#32
  let main_v30 : FVec F S5x1024 .f32 := broadcastInDim S5x1024 ![] bcast_S_S5x1024 main_cst_10
  let main_v31 : IVec S5x1024 1 := cmpf .olt main_v29 main_v30
  let main_c_11 : IVec S_ 1 := constantI S_ 1 1#1
  let main_v32 : IVec S_ 1 := (fun x v => Host.reduce IntOp.andi x v reducesTo_S5x1024_S_d0_1 h_S_) main_v31 main_c_11
  let main_v33 : IVec S_ 1 := andi main_v28 main_v32
  main_v33

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S4096x1024 .f32) (main_arg5 : FVec F S5x1024 .f32) (main_arg6 : FVec F S5x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_v13 main_v16
-- ==== Kernel.lean ====
abbrev S4096x1024 : Shape := ⟨2, ![4096, 1024]⟩
abbrev S5x1024 : Shape := ⟨2, ![5, 1024]⟩
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 11
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S5x1024, .f32⟩
  | .hbm, ⟨6, _⟩ => ⟨S5x1024, .f32⟩
  | .hbm, ⟨7, _⟩ => ⟨S4096x1024, .bf16⟩
  | .hbm, ⟨8, _⟩ => ⟨S4096x1024, .bf16⟩
  | .hbm, ⟨9, _⟩ => ⟨S4096x1024, .f32⟩
  | .hbm, ⟨10, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S4096x1024, .bf16⟩
  | .local _ .vmem, ⟨7, _⟩ => ⟨S4096x1024, .bf16⟩
  | .local _ .vmem, ⟨8, _⟩ => ⟨S5x1024, .f32⟩
  | .local _ .vmem, ⟨9, _⟩ => ⟨S5x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4096x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S5x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S5x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bitsLt_bf16_f32 : FTy.bits .bf16 < FTy.bits .f32
  inb_S5x1024_S5x1024_0_0 : ∀ a, (![0, 0] : Fin 2 → Nat) a + S5x1024.size a ≤ S5x1024.size a
  h_S5x1024 : 0 < S5x1024.numel
  inb_S256x1024_S256x1024_0_0 : ∀ a, (![0, 0] : Fin 2 → Nat) a + S256x1024.size a ≤ S256x1024.size a
  h_S256x1024 : 0 < S256x1024.numel
  slices_S5x1024_o1_0_S1x1024 : S5x1024.Slices ![1, 0] S1x1024
  inb_S4096x1024_S1024x1024_0_0 : ∀ a, (![0, 0] : Fin 2 → Nat) a + S1024x1024.size a ≤ S4096x1024.size a
  h_S1024x1024 : 0 < S1024x1024.numel
  shapeCasts_S1024x1024_S1024x1024 : S1024x1024.ShapeCasts S1024x1024
  slices_S5x1024_o0_0_S1x1024 : S5x1024.Slices ![0, 0] S1x1024
  reduces_S256x1024_S256 : S256x1024.Reduces [1] S256
  shapeCasts_S256_S256x1 : S256.ShapeCasts S256x1
  broadcasts_S256x1_S256x1024 : S256x1.Broadcasts S256x1024
  natLt_1_32 : 1 < 32
  broadcasts_S1x1024_S256x1024 : S1x1024.Broadcasts S256x1024
  inb_S4096x1024_S1024x1024_1024_0 : ∀ a, (![1024, 0] : Fin 2 → Nat) a + S1024x1024.size a ≤ S4096x1024.size a
  inb_S4096x1024_S1024x1024_2048_0 : ∀ a, (![2048, 0] : Fin 2 → Nat) a + S1024x1024.size a ≤ S4096x1024.size a
  slices_S5x1024_o2_0_S1x1024 : S5x1024.Slices ![2, 0] S1x1024
  inb_S4096x1024_S1024x1024_3072_0 : ∀ a, (![3072, 0] : Fin 2 → Nat) a + S1024x1024.size a ≤ S4096x1024.size a
  slices_S5x1024_o3_0_S1x1024 : S5x1024.Slices ![3, 0] S1x1024
  slices_S5x1024_o4_0_S1x1024 : S5x1024.Slices ![4, 0] S1x1024
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096x1024.size a ≤ S4096x1024.size a
  hwx0_3 : ∀ i : grid0.Coords, EltTy.bits .bf16 = 32 ∨ (Rect.block (s := S4096x1024) S4096x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x1024.size a ≤ S4096x1024.size a
  hwx0_4 : ∀ i : grid0.Coords, EltTy.bits .bf16 = 32 ∨ (Rect.block (s := S4096x1024) S4096x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S5x1024.size a ≤ S5x1024.size a
  hwx0_5 : ∀ i : grid0.Coords, EltTy.bits .f32 = 32 ∨ (Rect.block (s := S5x1024) S5x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S5x1024.size a ≤ S5x1024.size a
  hwx0_6 : ∀ i : grid0.Coords, EltTy.bits .f32 = 32 ∨ (Rect.block (s := S5x1024) S5x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S4096x1024.size a
  hwx0_7 : ∀ i : grid0.Coords, EltTy.bits .f32 = 32 ∨ (Rect.block (s := S4096x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S4096x1024.size a
  hwx0_8 : ∀ i : grid0.Coords, EltTy.bits .f32 = 32 ∨ (Rect.block (s := S4096x1024) S256x1024.size (cc0_transform_8 i) (hinb0_8 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4096x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4096x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S5x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S5x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S5x1024 : Shape := ⟨2, ![5, 1024]⟩
abbrev S1024x4096 : Shape := ⟨2, ![1024, 4096]⟩
abbrev S4096x4096 : Shape := ⟨2, ![4096, 4096]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 254
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S4096x1024, .f32⟩
  | 5 => ⟨S5x1024, .f32⟩
  | 6 => ⟨S5x1024, .f32⟩
  | 7 => ⟨S1024x4096, .f32⟩
  | 8 => ⟨S4096x4096, .f32⟩
  | 9 => ⟨S1024x4096, .f32⟩
  | 10 => ⟨S4096x4096, .f32⟩
  | 11 => ⟨S4096x4096, .f32⟩
  | 12 => ⟨S4096x1024, .f32⟩
  | 13 => ⟨S4096x1024, .f32⟩
  | 14 => ⟨S4096x1024, .f32⟩
  | 15 => ⟨S4096x1024, .f32⟩
  | 16 => ⟨S1x1024, .f32⟩
  | 17 => ⟨S1024, .f32⟩
  | 18 => ⟨S1x1024, .f32⟩
  | 19 => ⟨S1024, .f32⟩
  | 20 => ⟨S_, .f32⟩
  | 21 => ⟨S4096, .f32⟩
  | 22 => ⟨S4096x1, .f32⟩
  | 23 => ⟨S_, .f32⟩
  | 24 => ⟨S4096x1, .f32⟩
  | 25 => ⟨S4096x1, .f32⟩
  | 26 => ⟨S4096x1024, .f32⟩
  | 27 => ⟨S4096x1024, .f32⟩
  | 28 => ⟨S4096x1024, .f32⟩
  | 29 => ⟨S_, .f32⟩
  | 30 => ⟨S4096, .f32⟩
  | 31 => ⟨S4096x1, .f32⟩
  | 32 => ⟨S_, .f32⟩
  | 33 => ⟨S4096x1, .f32⟩
  | 34 => ⟨S4096x1, .f32⟩
  | 35 => ⟨S_, .f32⟩
  | 36 => ⟨S4096x1, .f32⟩
  | 37 => ⟨S4096x1, .i1⟩
  | 38 => ⟨S4096x1, .f32⟩
  | 39 => ⟨S_, .f32⟩
  | 40 => ⟨S4096x1, .f32⟩
  | 41 => ⟨S4096x1, .f32⟩
  | 42 => ⟨S4096x1024, .f32⟩
  | 43 => ⟨S4096x1024, .f32⟩
  | 44 => ⟨S_, .f32⟩
  | 45 => ⟨S4096x1, .f32⟩
  | 46 => ⟨S4096x1, .f32⟩
  | 47 => ⟨S4096x1, .f32⟩
  | 48 => ⟨S4096x1, .f32⟩
  | 49 => ⟨S4096x1024, .f32⟩
  | 50 => ⟨S4096x1024, .f32⟩
  | 51 => ⟨S1x1024, .f32⟩
  | 52 => ⟨S4096x1024, .f32⟩
  | 53 => ⟨S4096x1024, .f32⟩
  | 54 => ⟨S1x1024, .f32⟩
  | 55 => ⟨S4096x1024, .f32⟩
  | 56 => ⟨S4096x1024, .f32⟩
  | 57 => ⟨S1x1024, .f32⟩
  | 58 => ⟨S1024, .f32⟩
  | 59 => ⟨S1x1024, .f32⟩
  | 60 => ⟨S1024, .f32⟩
  | 61 => ⟨S_, .f32⟩
  | 62 => ⟨S4096, .f32⟩
  | 63 => ⟨S4096x1, .f32⟩
  | 64 => ⟨S_, .f32⟩
  | 65 => ⟨S4096x1, .f32⟩
  | 66 => ⟨S4096x1, .f32⟩
  | 67 => ⟨S4096x1024, .f32⟩
  | 68 => ⟨S4096x1024, .f32⟩
  | 69 => ⟨S4096x1024, .f32⟩
  | 70 => ⟨S_, .f32⟩
  | 71 => ⟨S4096, .f32⟩
  | 72 => ⟨S4096x1, .f32⟩
  | 73 => ⟨S_, .f32⟩
  | 74 => ⟨S4096x1, .f32⟩
  | 75 => ⟨S4096x1, .f32⟩
  | 76 => ⟨S_, .f32⟩
  | 77 => ⟨S4096x1, .f32⟩
  | 78 => ⟨S4096x1, .i1⟩
  | 79 => ⟨S4096x1, .f32⟩
  | 80 => ⟨S_, .f32⟩
  | 81 => ⟨S4096x1, .f32⟩
  | 82 => ⟨S4096x1, .f32⟩
  | 83 => ⟨S4096x1024, .f32⟩
  | 84 => ⟨S4096x1024, .f32⟩
  | 85 => ⟨S_, .f32⟩
  | 86 => ⟨S4096x1, .f32⟩
  | 87 => ⟨S4096x1, .f32⟩
  | 88 => ⟨S4096x1, .f32⟩
  | 89 => ⟨S4096x1, .f32⟩
  | 90 => ⟨S4096x1024, .f32⟩
  | 91 => ⟨S4096x1024, .f32⟩
  | 92 => ⟨S1x1024, .f32⟩
  | 93 => ⟨S4096x1024, .f32⟩
  | 94 => ⟨S4096x1024, .f32⟩
  | 95 => ⟨S1x1024, .f32⟩
  | 96 => ⟨S4096x1024, .f32⟩
  | 97 => ⟨S4096x1024, .f32⟩
  | 98 => ⟨S1x1024, .f32⟩
  | 99 => ⟨S1024, .f32⟩
  | 100 => ⟨S1x1024, .f32⟩
  | 101 => ⟨S1024, .f32⟩
  | 102 => ⟨S_, .f32⟩
  | 103 => ⟨S4096, .f32⟩
  | 104 => ⟨S4096x1, .f32⟩
  | 105 => ⟨S_, .f32⟩
  | 106 => ⟨S4096x1, .f32⟩
  | 107 => ⟨S4096x1, .f32⟩
  | 108 => ⟨S4096x1024, .f32⟩
  | 109 => ⟨S4096x1024, .f32⟩
  | 110 => ⟨S4096x1024, .f32⟩
  | 111 => ⟨S_, .f32⟩
  | 112 => ⟨S4096, .f32⟩
  | 113 => ⟨S4096x1, .f32⟩
  | 114 => ⟨S_, .f32⟩
  | 115 => ⟨S4096x1, .f32⟩
  | 116 => ⟨S4096x1, .f32⟩
  | 117 => ⟨S_, .f32⟩
  | 118 => ⟨S4096x1, .f32⟩
  | 119 => ⟨S4096x1, .i1⟩
  | 120 => ⟨S4096x1, .f32⟩
  | 121 => ⟨S_, .f32⟩
  | 122 => ⟨S4096x1, .f32⟩
  | 123 => ⟨S4096x1, .f32⟩
  | 124 => ⟨S4096x1024, .f32⟩
  | 125 => ⟨S4096x1024, .f32⟩
  | 126 => ⟨S_, .f32⟩
  | 127 => ⟨S4096x1, .f32⟩
  | _ => ⟨S4096x1024, .f32⟩

abbrev hbmTy0_1 (i : Nat) : BufTy := match i % 128 with
  | 0 => ⟨S4096x1, .f32⟩
  | 1 => ⟨S4096x1, .f32⟩
  | 2 => ⟨S4096x1, .f32⟩
  | 3 => ⟨S4096x1024, .f32⟩
  | 4 => ⟨S4096x1024, .f32⟩
  | 5 => ⟨S1x1024, .f32⟩
  | 6 => ⟨S4096x1024, .f32⟩
  | 7 => ⟨S4096x1024, .f32⟩
  | 8 => ⟨S1x1024, .f32⟩
  | 9 => ⟨S4096x1024, .f32⟩
  | 10 => ⟨S4096x1024, .f32⟩
  | 11 => ⟨S1x1024, .f32⟩
  | 12 => ⟨S1024, .f32⟩
  | 13 => ⟨S1x1024, .f32⟩
  | 14 => ⟨S1024, .f32⟩
  | 15 => ⟨S_, .f32⟩
  | 16 => ⟨S4096, .f32⟩
  | 17 => ⟨S4096x1, .f32⟩
  | 18 => ⟨S_, .f32⟩
  | 19 => ⟨S4096x1, .f32⟩
  | 20 => ⟨S4096x1, .f32⟩
  | 21 => ⟨S4096x1024, .f32⟩
  | 22 => ⟨S4096x1024, .f32⟩
  | 23 => ⟨S4096x1024, .f32⟩
  | 24 => ⟨S_, .f32⟩
  | 25 => ⟨S4096, .f32⟩
  | 26 => ⟨S4096x1, .f32⟩
  | 27 => ⟨S_, .f32⟩
  | 28 => ⟨S4096x1, .f32⟩
  | 29 => ⟨S4096x1, .f32⟩
  | 30 => ⟨S_, .f32⟩
  | 31 => ⟨S4096x1, .f32⟩
  | 32 => ⟨S4096x1, .i1⟩
  | 33 => ⟨S4096x1, .f32⟩
  | 34 => ⟨S_, .f32⟩
  | 35 => ⟨S4096x1, .f32⟩
  | 36 => ⟨S4096x1, .f32⟩
  | 37 => ⟨S4096x1024, .f32⟩
  | 38 => ⟨S4096x1024, .f32⟩
  | 39 => ⟨S_, .f32⟩
  | 40 => ⟨S4096x1, .f32⟩
  | 41 => ⟨S4096x1, .f32⟩
  | 42 => ⟨S4096x1, .f32⟩
  | 43 => ⟨S4096x1, .f32⟩
  | 44 => ⟨S4096x1024, .f32⟩
  | 45 => ⟨S4096x1024, .f32⟩
  | 46 => ⟨S1x1024, .f32⟩
  | 47 => ⟨S4096x1024, .f32⟩
  | 48 => ⟨S4096x1024, .f32⟩
  | 49 => ⟨S1x1024, .f32⟩
  | 50 => ⟨S4096x1024, .f32⟩
  | 51 => ⟨S4096x1024, .f32⟩
  | 52 => ⟨S4096x1024, .f32⟩
  | 53 => ⟨S4096x1024, .f32⟩
  | 54 => ⟨S_, .f32⟩
  | 55 => ⟨S4096x1024, .f32⟩
  | 56 => ⟨S4096x1024, .f32⟩
  | 57 => ⟨S_, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S4096x1024, .f32⟩
  | 64 => ⟨S4096x1024, .f32⟩
  | 65 => ⟨S_, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S4096x1024, .f32⟩
  | 72 => ⟨S4096x1024, .f32⟩
  | 73 => ⟨S4096x1024, .f32⟩
  | 74 => ⟨S_, .f32⟩
  | 75 => ⟨S4096x1024, .f32⟩
  | 76 => ⟨S4096x1024, .f32⟩
  | 77 => ⟨S_, .f32⟩
  | 78 => ⟨S4096x1024, .f32⟩
  | 79 => ⟨S4096x1024, .f32⟩
  | 80 => ⟨S4096x1024, .f32⟩
  | 81 => ⟨S4096x1024, .f32⟩
  | 82 => ⟨S4096x1024, .f32⟩
  | 83 => ⟨S1x1024, .f32⟩
  | 84 => ⟨S1024, .f32⟩
  | 85 => ⟨S1x1024, .f32⟩
  | 86 => ⟨S1024, .f32⟩
  | 87 => ⟨S_, .f32⟩
  | 88 => ⟨S4096, .f32⟩
  | 89 => ⟨S4096x1, .f32⟩
  | 90 => ⟨S_, .f32⟩
  | 91 => ⟨S4096x1, .f32⟩
  | 92 => ⟨S4096x1, .f32⟩
  | 93 => ⟨S4096x1024, .f32⟩
  | 94 => ⟨S4096x1024, .f32⟩
  | 95 => ⟨S4096x1024, .f32⟩
  | 96 => ⟨S_, .f32⟩
  | 97 => ⟨S4096, .f32⟩
  | 98 => ⟨S4096x1, .f32⟩
  | 99 => ⟨S_, .f32⟩
  | 100 => ⟨S4096x1, .f32⟩
  | 101 => ⟨S4096x1, .f32⟩
  | 102 => ⟨S_, .f32⟩
  | 103 => ⟨S4096x1, .f32⟩
  | 104 => ⟨S4096x1, .i1⟩
  | 105 => ⟨S4096x1, .f32⟩
  | 106 => ⟨S_, .f32⟩
  | 107 => ⟨S4096x1, .f32⟩
  | 108 => ⟨S4096x1, .f32⟩
  | 109 => ⟨S4096x1024, .f32⟩
  | 110 => ⟨S4096x1024, .f32⟩
  | 111 => ⟨S_, .f32⟩
  | 112 => ⟨S4096x1, .f32⟩
  | 113 => ⟨S4096x1, .f32⟩
  | 114 => ⟨S4096x1, .f32⟩
  | 115 => ⟨S4096x1, .f32⟩
  | 116 => ⟨S4096x1024, .f32⟩
  | 117 => ⟨S4096x1024, .f32⟩
  | 118 => ⟨S1x1024, .f32⟩
  | 119 => ⟨S4096x1024, .f32⟩
  | 120 => ⟨S4096x1024, .f32⟩
  | 121 => ⟨S1x1024, .f32⟩
  | 122 => ⟨S4096x1024, .f32⟩
  | 123 => ⟨S4096x1024, .f32⟩
  | 124 => ⟨S4096x1024, .f32⟩
  | 125 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_6 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_8 : Ref sig .tc := ⟨.hbm, 70, rfl⟩
abbrev main_v54 : Ref sig .tc := ⟨.hbm, 71, rfl⟩
abbrev main_v55 : Ref sig .tc := ⟨.hbm, 72, rfl⟩
abbrev main_cst_9 : Ref sig .tc := ⟨.hbm, 73, rfl⟩
abbrev main_v56 : Ref sig .tc := ⟨.hbm, 74, rfl⟩
abbrev main_v57 : Ref sig .tc := ⟨.hbm, 75, rfl⟩
abbrev main_cst_10 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_cst_12 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_cst_13 : Ref sig .tc := ⟨.hbm, 102, rfl⟩
abbrev main_v81 : Ref sig .tc := ⟨.hbm, 103, rfl⟩
abbrev main_v82 : Ref sig .tc := ⟨.hbm, 104, rfl⟩
abbrev main_cst_14 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_cst_15 : Ref sig .tc := ⟨.hbm, 111, rfl⟩
abbrev main_v88 : Ref sig .tc := ⟨.hbm, 112, rfl⟩
abbrev main_v89 : Ref sig .tc := ⟨.hbm, 113, rfl⟩
abbrev main_cst_16 : Ref sig .tc := ⟨.hbm, 114, rfl⟩
abbrev main_v90 : Ref sig .tc := ⟨.hbm, 115, rfl⟩
abbrev main_v91 : Ref sig .tc := ⟨.hbm, 116, rfl⟩
abbrev main_cst_17 : Ref sig .tc := ⟨.hbm, 117, rfl⟩
abbrev main_v92 : Ref sig .tc := ⟨.hbm, 118, rfl⟩
abbrev main_v93 : Ref sig .tc := ⟨.hbm, 119, rfl⟩
abbrev main_v94 : Ref sig .tc := ⟨.hbm, 120, rfl⟩
abbrev main_cst_18 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_cst_19 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_20 : Ref sig .tc := ⟨.hbm, 143, rfl⟩
abbrev main_v115 : Ref sig .tc := ⟨.hbm, 144, rfl⟩
abbrev main_v116 : Ref sig .tc := ⟨.hbm, 145, rfl⟩
abbrev main_cst_21 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_cst_22 : Ref sig .tc := ⟨.hbm, 152, rfl⟩
abbrev main_v122 : Ref sig .tc := ⟨.hbm, 153, rfl⟩
abbrev main_v123 : Ref sig .tc := ⟨.hbm, 154, rfl⟩
abbrev main_cst_23 : Ref sig .tc := ⟨.hbm, 155, rfl⟩
abbrev main_v124 : Ref sig .tc := ⟨.hbm, 156, rfl⟩
abbrev main_v125 : Ref sig .tc := ⟨.hbm, 157, rfl⟩
abbrev main_cst_24 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_cst_25 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_cst_26 : Ref sig .tc := ⟨.hbm, 167, rfl⟩
abbrev main_v133 : Ref sig .tc := ⟨.hbm, 168, rfl⟩
abbrev main_v134 : Ref sig .tc := ⟨.hbm, 169, rfl⟩
abbrev main_v135 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_cst_27 : Ref sig .tc := ⟨.hbm, 182, rfl⟩
abbrev main_v147 : Ref sig .tc := ⟨.hbm, 183, rfl⟩
abbrev main_v148 : Ref sig .tc := ⟨.hbm, 184, rfl⟩
abbrev main_cst_28 : Ref sig .tc := ⟨.hbm, 185, rfl⟩
abbrev main_v149 : Ref sig .tc := ⟨.hbm, 186, rfl⟩
abbrev main_v150 : Ref sig .tc := ⟨.hbm, 187, rfl⟩
abbrev main_cst_29 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_cst_30 : Ref sig .tc := ⟨.hbm, 193, rfl⟩
abbrev main_v155 : Ref sig .tc := ⟨.hbm, 194, rfl⟩
abbrev main_v156 : Ref sig .tc := ⟨.hbm, 195, rfl⟩
abbrev main_cst_31 : Ref sig .tc := ⟨.hbm, 196, rfl⟩
abbrev main_v157 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_cst_32 : Ref sig .tc := ⟨.hbm, 202, rfl⟩
abbrev main_v162 : Ref sig .tc := ⟨.hbm, 203, rfl⟩
abbrev main_v163 : Ref sig .tc := ⟨.hbm, 204, rfl⟩
abbrev main_cst_33 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_cst_34 : Ref sig .tc := ⟨.hbm, 215, rfl⟩
abbrev main_v173 : Ref sig .tc := ⟨.hbm, 216, rfl⟩
abbrev main_v174 : Ref sig .tc := ⟨.hbm, 217, rfl⟩
abbrev main_cst_35 : Ref sig .tc := ⟨.hbm, 218, rfl⟩
abbrev main_v175 : Ref sig .tc := ⟨.hbm, 219, rfl⟩
abbrev main_v176 : Ref sig .tc := ⟨.hbm, 220, rfl⟩
abbrev main_v177 : Ref sig .tc := ⟨.hbm, 221, rfl⟩
abbrev main_v178 : Ref sig .tc := ⟨.hbm, 222, rfl⟩
abbrev main_v179 : Ref sig .tc := ⟨.hbm, 223, rfl⟩
abbrev main_cst_36 : Ref sig .tc := ⟨.hbm, 224, rfl⟩
abbrev main_v180 : Ref sig .tc := ⟨.hbm, 225, rfl⟩
abbrev main_v181 : Ref sig .tc := ⟨.hbm, 226, rfl⟩
abbrev main_cst_37 : Ref sig .tc := ⟨.hbm, 227, rfl⟩
abbrev main_v182 : Ref sig .tc := ⟨.hbm, 228, rfl⟩
abbrev main_v183 : Ref sig .tc := ⟨.hbm, 229, rfl⟩
abbrev main_cst_38 : Ref sig .tc := ⟨.hbm, 230, rfl⟩
abbrev main_v184 : Ref sig .tc := ⟨.hbm, 231, rfl⟩
abbrev main_v185 : Ref sig .tc := ⟨.hbm, 232, rfl⟩
abbrev main_v186 : Ref sig .tc := ⟨.hbm, 233, rfl⟩
abbrev main_cst_39 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_cst_40 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_v195 : Ref sig .tc := ⟨.hbm, 244, rfl⟩
abbrev main_v196 : Ref sig .tc := ⟨.hbm, 245, rfl⟩
abbrev main_v197 : Ref sig .tc := ⟨.hbm, 246, rfl⟩
abbrev main_v198 : Ref sig .tc := ⟨.hbm, 247, rfl⟩
abbrev main_v199 : Ref sig .tc := ⟨.hbm, 248, rfl⟩
abbrev main_v200 : Ref sig .tc := ⟨.hbm, 249, rfl⟩
abbrev main_v201 : Ref sig .tc := ⟨.hbm, 250, rfl⟩
abbrev main_v202 : Ref sig .tc := ⟨.hbm, 251, rfl⟩
abbrev main_v203 : Ref sig .tc := ⟨.hbm, 252, rfl⟩
abbrev main_v204 : Ref sig .tc := ⟨.hbm, 253, rfl⟩

abbrev nD : Nat := 1
abbrev τ : Topo := Topo.v7x

variable {F : FTy → Type} [FloatOps F]

class Facts₀ : Prop where
  transposes_S4096x1024_S1024x4096_1_0 : S4096x1024.Transposes [1, 0] S1024x4096
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  slices_S5x1024_S1x1024_0_0 : S5x1024.Slices ![0, 0] S1x1024
  shapeCasts_S1x1024_S1024 : S1x1024.ShapeCasts S1024
  reducesTo_S4096x1024_S4096_d1 : S4096x1024.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  slices_S5x1024_S1x1024_1_0 : S5x1024.Slices ![1, 0] S1x1024
  slices_S5x1024_S1x1024_2_0 : S5x1024.Slices ![2, 0] S1x1024
  slices_S5x1024_S1x1024_3_0 : S5x1024.Slices ![3, 0] S1x1024
  bcast_S_S4096x1024 : S_.BroadcastsInDim S4096x1024 (![] : Fin 0 → Fin S4096x1024.rank)
  slices_S5x1024_S1x1024_4_0 : S5x1024.Slices ![4, 0] S1x1024
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.Consts.lean ====
/-
  The four float constants both programs spell, as the extended reals their bit patterns denote: the row length
  `1024`, the variance floor `ε` (the single-precision value nearest `1e-12`), the variance filter's weight (nearest
  `0.01`) and `1`. Only `1024` and `1` are ever needed by value; of `ε` only that it is positive, of the filter's
  weight only that it is not negative.
-/
import Idealize.ShloMosaic.PureOps.Ideal

noncomputable section

namespace Cert.Consts

open Idealize.ShloMosaic

/-- `1024.0` denotes the real `1024`. -/
theorem ofBits_1024 : Ideal.ofBits .f32 0x44800000#32 = ((1024 : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- The variance floor is a positive number. -/
theorem eps_pos : (0 : EReal) < Ideal.ofBits .f32 0x2B8CBCCC#32 := by
  simp [Ideal.ofBits, Ideal.ieee, -EReal.coe_mul]

/-- The filter's weight is not negative. -/
theorem fil_nonneg : (0 : EReal) ≤ Ideal.ofBits .f32 0x3C23D70A#32 := by
  simp [Ideal.ofBits, Ideal.ieee, -EReal.coe_mul]

end Cert.Consts

end
-- ==== Proof.Spec.lean ====
/-
  The layer-normalised LSTM cell, one batch row at a time, on the extended reals.

  A row `v` of 1024 numbers has mean `μ = (∑ v) / 1024`, variance `σ² = (∑ (v - μ)²) / 1024` and the regularised
  variance `d = (σ² + ε) + w · [σ² < ε]`. Layer normalisation scales the centred row by `d^(-1/2)`, then applies an
  affine map `g · _ + b` columnwise. It is written here twice: multiplying by the reciprocal square root
  (`lnMul`), and dividing by the square root (`lnDiv`). The two agree at EVERY extended-real row: a square is
  never negative, so `σ² ≥ 0`, and `ε > 0`, `w ≥ 0`, so `d > 0`; for `d` a positive real both are the product with
  `(√d)⁻¹`, and for `d = +∞` both are `0`. No finiteness of the row is used.

  The cell: four gates, each the sum of two 1024-term dot products of the row of `x` and of `h` with a row of the
  gate's weight matrices, each layer-normalised; with `i, f, o` through the logistic function and `g` through
  `tanh`, the new cell state is the layer normalisation of `f · c + i · g` (the forget gate's bias `1` added to its
  offset row) and the new hidden state is `o · tanh` of it.
-/
import Idealize.ShloMosaic.PureOps.Ideal
import Idealize.ShloMosaic.Lib.ValueIdx
import proofs.«162088_j88587995447884_2_alg».proof.Proof.Consts

noncomputable section

namespace Cert.Lstm

open Idealize.ShloMosaic Idealize.ShloMosaic.ValueIdx

/-- One row of 1024 extended reals. -/
abbrev Row : Type := Fin 1024 → EReal

/-- The row length, the variance floor, the filter's weight and one, as the programs spell them. -/
def c1024 : EReal := Ideal.ofBits .f32 0x44800000#32
def ceps : EReal := Ideal.ofBits .f32 0x2B8CBCCC#32
def cfil : EReal := Ideal.ofBits .f32 0x3C23D70A#32
def cone : EReal := Ideal.ofBits .f32 0x3F800000#32

/-- The variance computed around a GIVEN centre `μ`. -/
def varAt (v : Row) (μ : EReal) : EReal := Ideal.div (∑ k : Fin 1024, (v k - μ) * (v k - μ)) c1024

/-- `1` where the variance is below the floor, else `0`. -/
def ind (x : EReal) : EReal := (((Ideal.cmp .olt x ceps).toNat : ℝ) : EReal)

/-- The filter term and the regularised variance from a GIVEN variance. -/
def filt (s : EReal) : EReal := cfil * ind s
def denAt (s f : EReal) : EReal := (s + ceps) + f

def mean (v : Row) : EReal := Ideal.div (∑ k : Fin 1024, v k) c1024
def var (v : Row) : EReal := varAt v (mean v)
def den (v : Row) : EReal := denAt (var v) (filt (var v))

/-- Layer normalisation by the reciprocal square root, and by the square root. -/
def lnMul (v g b : Row) : Row := fun c => g c * ((v c - mean v) * Ideal.rsqrt (den v)) + b c
def lnDiv (v g b : Row) : Row := fun c => g c * Ideal.div (v c - mean v) (Ideal.sqrt (den v)) + b c

/-! ## The two normalisations agree -/

theorem mul_self_nonneg' (x : EReal) : 0 ≤ x * x := by
  rcases le_total 0 x with h | h
  · exact EReal.mul_nonneg h h
  · have h' : 0 ≤ -x := EReal.neg_nonneg.2 h
    have := EReal.mul_nonneg h' h'
    rwa [neg_mul_neg] at this

theorem div_1024_nonneg {s : EReal} (h : 0 ≤ s) : 0 ≤ Ideal.div s c1024 := by
  unfold c1024
  rw [Cert.Consts.ofBits_1024, Ideal.div_coe (by norm_num)]
  exact EReal.mul_nonneg h (by exact_mod_cast (by norm_num : (0 : ℝ) ≤ 1 / 1024))

theorem varAt_nonneg (v : Row) (μ : EReal) : 0 ≤ varAt v μ :=
  div_1024_nonneg (Finset.sum_nonneg fun k _ => mul_self_nonneg' _)

theorem ind_nonneg (x : EReal) : 0 ≤ ind x := by
  unfold ind; exact_mod_cast Nat.cast_nonneg _

theorem denAt_pos {s : EReal} (h : 0 ≤ s) : 0 < denAt s (filt s) := by
  have h1 : 0 < s + ceps := lt_of_lt_of_le Cert.Consts.eps_pos (le_add_of_nonneg_left h)
  have h2 : 0 ≤ filt s := EReal.mul_nonneg Cert.Consts.fil_nonneg (ind_nonneg s)
  exact lt_of_lt_of_le h1 (le_add_of_nonneg_right h2)

theorem den_pos (v : Row) : 0 < den v := denAt_pos (varAt_nonneg v _)

/-- For a positive `d`, multiplying by `d^(-1/2)` is dividing by `√d`, whatever the other factor. -/
theorem mul_rsqrt_eq_div_sqrt (a : EReal) {d : EReal} (hd : 0 < d) : a * Ideal.rsqrt d = Ideal.div a (Ideal.sqrt d) := by
  induction d using EReal.rec with
  | bot => exact absurd hd (by simp)
  | top =>
    show a * 0 = Ideal.div a ⊤
    rw [Ideal.div, if_neg (by simp), EReal.inv_top]
  | coe r =>
    have hr : 0 < r := by exact_mod_cast hd
    have hs : Real.sqrt r ≠ 0 := (Real.sqrt_pos.2 hr).ne'
    show a * (if r < 0 then (⊥ : EReal) else if r = 0 then (⊤ : EReal) else (((Real.sqrt r)⁻¹ : ℝ) : EReal)) = Ideal.div a (if r < 0 then (⊥ : EReal) else ((Real.sqrt r : ℝ) : EReal))
    rw [if_neg (not_lt.2 hr.le), if_neg hr.ne', if_neg (not_lt.2 hr.le), Ideal.div_coe hs, one_div]

theorem lnMul_eq_lnDiv (v g b : Row) : lnMul v g b = lnDiv v g b := by
  funext c
  unfold lnMul lnDiv
  rw [mul_rsqrt_eq_div_sqrt _ (den_pos v)]

/-! ## The cell -/

/-- One gate's pre-activation row: the row of `x` against the gate's input weights plus the row of `h` against its
    hidden weights (`wi c`, `wh c` the weight rows of output column `c`). -/
def gate (x h : Row) (wi wh : Fin 1024 → Row) : Row := fun c => (∑ k : Fin 1024, x k * wi c k) + ∑ k : Fin 1024, h k * wh c k

/-- The new cell state before its normalisation: `f · c + i · g`. -/
def cyPre (x h cx : Row) (wi wh : Fin 4 → Fin 1024 → Row) (gam bet : Fin 5 → Row) : Row := fun c =>
  Ideal.logistic (lnMul (gate x h (wi 1) (wh 1)) (gam 1) (fun c => bet 1 c + cone) c) * cx c
    + Ideal.logistic (lnMul (gate x h (wi 0) (wh 0)) (gam 0) (bet 0) c) * Ideal.tanh (lnMul (gate x h (wi 2) (wh 2)) (gam 2) (bet 2) c)

/-- The new cell state and the new hidden state of one batch row. -/
def cyRow (x h cx : Row) (wi wh : Fin 4 → Fin 1024 → Row) (gam bet : Fin 5 → Row) : Row :=
  lnMul (cyPre x h cx wi wh gam bet) (gam 4) (bet 4)
def hyRow (x h cx : Row) (wi wh : Fin 4 → Fin 1024 → Row) (gam bet : Fin 5 → Row) : Row := fun c =>
  Ideal.logistic (lnMul (gate x h (wi 3) (wh 3)) (gam 3) (bet 3) c) * Ideal.tanh (cyRow x h cx wi wh gam bet c)

/-! ## Over the whole arrays -/

abbrev SB : Shape := ⟨2, ![4096, 1024]⟩
abbrev SG : Shape := ⟨2, ![5, 1024]⟩

/-- Row `r` of a `[4096, 1024]` array; gate `i`'s 1024 weight rows of a `[4·1024, 1024]` matrix; the five rows of a `[5, 1024]` array. -/
def rowOf (X : SB.Idx → EReal) (r : Fin 4096) : Row := fun k => X (ix2 r k)
def wOf (W : SB.Idx → EReal) (i : Fin 4) : Fin 1024 → Row := fun c k => W (ix2 (⟨i.val * 1024 + c.val, by omega⟩ : Fin 4096) k)
def gOf (G : SG.Idx → EReal) (i : Fin 5) : Row := fun c => G (ix2 i c)

/-- The new cell state and hidden state as whole-array functions of the seven argument arrays. -/
def CY (X H C WI WH : SB.Idx → EReal) (GAM BET : SG.Idx → EReal) : SB.Idx → EReal := fun j =>
  cyRow (rowOf X (j 0)) (rowOf H (j 0)) (rowOf C (j 0)) (wOf WI) (wOf WH) (gOf GAM) (gOf BET) (j 1)
def HY (X H C WI WH : SB.Idx → EReal) (GAM BET : SG.Idx → EReal) : SB.Idx → EReal := fun j =>
  hyRow (rowOf X (j 0)) (rowOf H (j 0)) (rowOf C (j 0)) (wOf WI) (wOf WH) (gOf GAM) (gOf BET) (j 1)

end Cert.Lstm

end
-- ==== Proof.LibKeepdims.lean ====
/-
  Two layout operations read at an index written by coordinates, the pair a reduction with kept dimensions
  goes through on its way back over the reduced axis: a vector `[a]` cast to a column `[a, 1]`, and a
  column `[a, 1]` broadcast along the rows of `[a, b]`. General lemmas: any element type, any extents.
-/
import Idealize.ShloMosaic.Lib.Pipeline.Value
import Idealize.ShloMosaic.Lib.ValueIdx

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(i, j)`, the column's entry `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibKeepdims
-- ==== Proof.KernelOps.lean ====
/-
  The kernel body's building blocks, each named once and read at an index written by coordinates `(p, q)`, `p` one of
  the 256 rows of a batch tile and `q` one of the 1024 columns.

  A gate is the sum of two matrix products of a [256, 1024] tile with a [1024, 1024] slab of weights, both contracted over
  their SECOND axes: at `(p, q)` it is the dot product of row `p` of the tile with row `q` of the slab, once for the
  input and once for the hidden state. A row's mean is its lane sum over 1024 as a column [256, 1]; the variance
  around a given centre column is the mean of the squared differences; the filter is the weight times the
  indicator of a small variance (the comparison's bit widened and read as a signed integer is `0` or `1`, the same
  number its unsigned reading gives); normalising multiplies the centred tile by the reciprocal square root of the
  regularised variance column; the affine step multiplies by a [1, 1024] scale row and adds a [1, 1024] offset row.
-/
import proofs.«162088_j88587995447884_2_alg».proof.KernelIdeal
import proofs.«162088_j88587995447884_2_alg».proof.Proof.Spec
import proofs.«162088_j88587995447884_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Ops

open Cert.KernelIdeal Idealize.ShloMosaic Idealize.ShloMosaic.ValueIdx Cert.Lstm Cert.LibKeepdims

variable [Cert.KernelIdeal.Facts]
open Facts₀ Facts

/-! ## The building blocks, in the body's own operations -/

def kGate (x h : FVec Ideal S256x1024 .bf16) (w w' : FVec Ideal S1024x1024 .bf16) : FVec Ideal S256x1024 .f32 :=
  addf (matmul dot_S256x1024_S1024x1024_S256x1024_1_1_0_0_n_n none x (shapeCast S1024x1024 w shapeCasts_S1024x1024_S1024x1024) (constant S256x1024 .f32 0x00000000#32))
    (matmul dot_S256x1024_S1024x1024_S256x1024_1_1_0_0_n_n none h (shapeCast S1024x1024 w' shapeCasts_S1024x1024_S1024x1024) (constant S256x1024 .f32 0x00000000#32))

def kMean (v : FVec Ideal S256x1024 .f32) : FVec Ideal S256x1 .f32 :=
  divf (shapeCast S256x1 (multiReduction .add [1] S256 v 0x00000000#32 reduces_S256x1024_S256 (.inl rfl) rfl) shapeCasts_S256_S256x1)
    (broadcast S256x1 (Scalar.ofBits .f32 0x44800000#32))

def kCentre (v : FVec Ideal S256x1024 .f32) (μ : FVec Ideal S256x1 .f32) : FVec Ideal S256x1024 .f32 :=
  subf v (broadcastTo S256x1024 μ broadcasts_S256x1_S256x1024)

def kVarAt (v : FVec Ideal S256x1024 .f32) (μ : FVec Ideal S256x1 .f32) : FVec Ideal S256x1 .f32 :=
  kMean (mulf (kCentre v μ) (kCentre v μ))

def kFilt (s : FVec Ideal S256x1 .f32) : FVec Ideal S256x1 .f32 :=
  mulf (broadcast S256x1 (Scalar.ofBits .f32 0x3C23D70A#32))
    (sitofp .f32 (extui 32 (cmpf .olt s (broadcast S256x1 (Scalar.ofBits .f32 0x2B8CBCCC#32))) natLt_1_32))

def kNorm (v : FVec Ideal S256x1024 .f32) (μ s f : FVec Ideal S256x1 .f32) : FVec Ideal S256x1024 .f32 :=
  mulf (kCentre v μ)
    (broadcastTo S256x1024 (rsqrt (addf (addf s (broadcast S256x1 (Scalar.ofBits .f32 0x2B8CBCCC#32))) f)) broadcasts_S256x1_S256x1024)

def kAffine (n : FVec Ideal S256x1024 .f32) (g b : FVec Ideal S1x1024 .f32) : FVec Ideal S256x1024 .f32 :=
  addf (mulf (broadcastTo S256x1024 g broadcasts_S1x1024_S256x1024) n) (broadcastTo S256x1024 b broadcasts_S1x1024_S256x1024)

/-- The whole layer normalisation of a tile, as the body computes it. -/
def kLN (v : FVec Ideal S256x1024 .f32) (g b : FVec Ideal S1x1024 .f32) : FVec Ideal S256x1024 .f32 :=
  kAffine (kNorm v (kMean v) (kVarAt v (kMean v)) (kFilt (kVarAt v (kMean v)))) g b

/-! ## The matrix product at an index -/

theorem lhs_row (i : S256x1024.Idx) (q : dot_S256x1024_S1024x1024_S256x1024_1_1_0_0_n_n.contr.Idx) : (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch from List.not_mem_nil),
    dif_pos (show (0 : Fin S256x1024.rank) ∈ dot_S256x1024_S1024x1024_S256x1024_1_1_0_0_n_n.lhsNonContracting from List.mem_singleton.2 rfl)]
  rfl

theorem lhs_k (i : S256x1024.Idx) (q : dot_S256x1024_S1024x1024_S256x1024_1_1_0_0_n_n.contr.Idx) : (dot_S256x1024_S1024x1024_S256x1024_1_1_0_0_n_n.lhsIdx i q 1).val = (q ⟨0, Nat.one_pos⟩).val :=
  dot_S256x1024_S1024x1024_S256x1024_1_1_0_0_n_n.lhsIdx_val_of_single rfl i q

theorem rhs_row (i : S256x1024.Idx) (q : dot_S256x1024_S1024x1024_S256x1024_1_1_0_0_n_n.contr.Idx) : (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch from List.not_mem_nil),
    dif_pos (show (0 : Fin S1024x1024.rank) ∈ dot_S256x1024_S1024x1024_S256x1024_1_1_0_0_n_n.rhsNonContracting from List.mem_singleton.2 rfl)]
  rfl

theorem rhs_k (i : S256x1024.Idx) (q : dot_S256x1024_S1024x1024_S256x1024_1_1_0_0_n_n.contr.Idx) : (dot_S256x1024_S1024x1024_S256x1024_1_1_0_0_n_n.rhsIdx i q 1).val = (q ⟨0, Nat.one_pos⟩).val :=
  dot_S256x1024_S1024x1024_S256x1024_1_1_0_0_n_n.rhsIdx_val_of_single rfl i q

/-- Into a zero accumulator, the product at `(p, q)` is the dot product of row `p` of the tile with row `q` of the slab. -/
theorem matmul_zero_apply (x : FVec Ideal S256x1024 .bf16) (w : FVec Ideal S1024x1024 .bf16) (p : Fin 256) (q : Fin 1024) :
    matmul dot_S256x1024_S1024x1024_S256x1024_1_1_0_0_n_n none x w (constant S256x1024 .f32 0x00000000#32) (ix2 p q) = ∑ k : Fin 1024, x (ix2 p k) * w (ix2 q k) := by
  refine (Ideal.matmul_constant_zero_apply dot_S256x1024_S1024x1024_S256x1024_1_1_0_0_n_n none x w (ix2 p q)).trans ?_
  rw [← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 p q) ((contrEquiv1 dot_S256x1024_S1024x1024_S256x1024_1_1_0_0_n_n 1024 rfl rfl).symm k) = ix2 p k :=
    funext fun a => Fin.ext (by
      match a with
      | ⟨0, _⟩ => exact lhs_row _ _
      | ⟨1, _⟩ => exact (lhs_k _ _).trans hk)
  have er : dot_S256x1024_S1024x1024_S256x1024_1_1_0_0_n_n.rhsIdx (ix2 p q) ((contrEquiv1 dot_S256x1024_S1024x1024_S256x1024_1_1_0_0_n_n 1024 rfl rfl).symm k) = ix2 q k :=
    funext fun a => Fin.ext (by
      match a with
      | ⟨0, _⟩ => exact rhs_row _ _
      | ⟨1, _⟩ => exact (rhs_k _ _).trans hk)
  rw [el, er]

theorem kGate_apply (x h : FVec Ideal S256x1024 .bf16) (w w' : FVec Ideal S1024x1024 .bf16) (p : Fin 256) (q : Fin 1024) :
    kGate x h w w' (ix2 p q) = gate (fun k => x (ix2 p k)) (fun k => h (ix2 p k)) (fun c k => w (ix2 c k)) (fun c k => w' (ix2 c k)) q := by
  unfold kGate gate
  rw [addf_apply, shapeCast_self, shapeCast_self, matmul_zero_apply, matmul_zero_apply]

/-! ## The lane sum, the mean and the variance columns -/

theorem rowsum_apply (v : FVec Ideal S256x1024 .f32) (p : Fin 256) :
    multiReduction .add [1] S256 v 0x00000000#32 reduces_S256x1024_S256 (.inl rfl) rfl (ix1 p) = ∑ k : Fin 1024, v (ix2 p k) := by
  refine (Ideal.multiReduction_add_single v 0x00000000#32 reduces_S256x1024_S256 (.inl rfl) rfl (ix1 p)).trans ?_
  exact Finset.sum_congr rfl fun k _ => congrArg v (funext fun a => Fin.ext (by
    match a with
    | ⟨0, _⟩ => rfl
    | ⟨1, _⟩ => rfl))

theorem kMean_apply (v : FVec Ideal S256x1024 .f32) (p : Fin 256) :
    kMean v (ix2 p (0 : Fin 1)) = mean (fun k => v (ix2 p k)) := by
  unfold kMean mean
  rw [divf_apply, shapeCast_a_a1_apply, rowsum_apply]
  rfl

theorem kCentre_apply (v : FVec Ideal S256x1024 .f32) (μ : FVec Ideal S256x1 .f32) (p : Fin 256) (q : Fin 1024) :
    kCentre v μ (ix2 p q) = v (ix2 p q) - μ (ix2 p (0 : Fin 1)) := by
  unfold kCentre
  rw [subf_apply, broadcastTo_a1_ab_apply]

theorem kVarAt_apply (v : FVec Ideal S256x1024 .f32) (μ : FVec Ideal S256x1 .f32) (p : Fin 256) :
    kVarAt v μ (ix2 p (0 : Fin 1)) = varAt (fun k => v (ix2 p k)) (μ (ix2 p (0 : Fin 1))) := by
  unfold kVarAt varAt
  rw [kMean_apply]
  unfold mean
  refine congrArg (fun s => Ideal.div s c1024) (Finset.sum_congr rfl fun k _ => ?_)
  show mulf (kCentre v μ) (kCentre v μ) (ix2 p k) = _
  rw [mulf_apply, kCentre_apply]

/-! ## The filter, the normalisation and the affine step -/

/-- A comparison's bit, widened to 32 bits and read as a signed integer, is the number its unsigned reading gives. -/
theorem toInt_setWidth_bit (b : BitVec 1) : ((b.setWidth 32).toInt : ℝ) = (b.toNat : ℝ) := by
  have h : ∀ b : BitVec 1, (b.setWidth 32).toInt = (b.toNat : ℤ) := by decide
  rw [h b]; norm_cast

theorem kFilt_apply (s : FVec Ideal S256x1 .f32) (p : Fin 256) :
    kFilt s (ix2 p (0 : Fin 1)) = filt (s (ix2 p (0 : Fin 1))) := by
  unfold kFilt filt ind
  rw [mulf_apply, broadcast_apply, sitofp_apply, extui_apply, cmpf_apply, broadcast_apply]
  show cfil * (((((Ideal.cmp .olt (s (ix2 p 0)) ceps).setWidth 32).toInt : ℝ) : EReal)) = _
  rw [toInt_setWidth_bit]

theorem kNorm_apply (v : FVec Ideal S256x1024 .f32) (μ s f : FVec Ideal S256x1 .f32) (p : Fin 256) (q : Fin 1024) :
    kNorm v μ s f (ix2 p q)
      = (v (ix2 p q) - μ (ix2 p (0 : Fin 1))) * Ideal.rsqrt (denAt (s (ix2 p (0 : Fin 1))) (f (ix2 p (0 : Fin 1)))) := by
  unfold kNorm
  rw [mulf_apply, kCentre_apply, broadcastTo_a1_ab_apply]
  rfl

theorem kAffine_apply (n : FVec Ideal S256x1024 .f32) (g b : FVec Ideal S1x1024 .f32) (p : Fin 256) (q : Fin 1024) :
    kAffine n g b (ix2 p q) = g (ix2 (0 : Fin 1) q) * n (ix2 p q) + b (ix2 (0 : Fin 1) q) := by
  unfold kAffine
  rw [addf_apply, mulf_apply, broadcastTo_1b_ab_apply, broadcastTo_1b_ab_apply]

/-- The body's layer normalisation of a tile, at `(p, q)`, is the row-wise one of row `p`, at column `q`. -/
theorem kLN_apply (v : FVec Ideal S256x1024 .f32) (g b : FVec Ideal S1x1024 .f32) (p : Fin 256) (q : Fin 1024) :
    kLN v g b (ix2 p q) = lnMul (fun k => v (ix2 p k)) (fun c => g (ix2 (0 : Fin 1) c)) (fun c => b (ix2 (0 : Fin 1) c)) q := by
  unfold kLN lnMul den var
  rw [kAffine_apply, kNorm_apply, kFilt_apply, kVarAt_apply, kMean_apply]

/-! ## The rows of the scale and offset arrays -/

theorem row0_apply (v : Vec Ideal S5x1024 .f32) (q : Fin 1024) :
    extractStridedSlice S1x1024 ![0, 0] v slices_S5x1024_o0_0_S1x1024 (ix2 (0 : Fin 1) q) = v (ix2 (0 : Fin 5) q) :=
  slice2_axis0_apply 0 v slices_S5x1024_o0_0_S1x1024 (0 : Fin 1) q (0 : Fin 5) rfl
theorem row1_apply (v : Vec Ideal S5x1024 .f32) (q : Fin 1024) :
    extractStridedSlice S1x1024 ![1, 0] v slices_S5x1024_o1_0_S1x1024 (ix2 (0 : Fin 1) q) = v (ix2 (1 : Fin 5) q) :=
  slice2_axis0_apply 1 v slices_S5x1024_o1_0_S1x1024 (0 : Fin 1) q (1 : Fin 5) rfl
theorem row2_apply (v : Vec Ideal S5x1024 .f32) (q : Fin 1024) :
    extractStridedSlice S1x1024 ![2, 0] v slices_S5x1024_o2_0_S1x1024 (ix2 (0 : Fin 1) q) = v (ix2 (2 : Fin 5) q) :=
  slice2_axis0_apply 2 v slices_S5x1024_o2_0_S1x1024 (0 : Fin 1) q (2 : Fin 5) rfl
theorem row3_apply (v : Vec Ideal S5x1024 .f32) (q : Fin 1024) :
    extractStridedSlice S1x1024 ![3, 0] v slices_S5x1024_o3_0_S1x1024 (ix2 (0 : Fin 1) q) = v (ix2 (3 : Fin 5) q) :=
  slice2_axis0_apply 3 v slices_S5x1024_o3_0_S1x1024 (0 : Fin 1) q (3 : Fin 5) rfl
theorem row4_apply (v : Vec Ideal S5x1024 .f32) (q : Fin 1024) :
    extractStridedSlice S1x1024 ![4, 0] v slices_S5x1024_o4_0_S1x1024 (ix2 (0 : Fin 1) q) = v (ix2 (4 : Fin 5) q) :=
  slice2_axis0_apply 4 v slices_S5x1024_o4_0_S1x1024 (0 : Fin 1) q (4 : Fin 5) rfl

end Cert.KernelIdeal.Ops

end
-- ==== Proof.KernelPay.lean ====
/-
  What the kernel body stores, at an index of the [256, 1024] tile, as the row-wise cell of Proof/Spec.lean.

  Each of the body's named values is one of the building blocks of Proof/KernelOps.lean applied to earlier values —
  the equations below hold by unfolding, the body's text and the building blocks being the same operations in the same
  order. The four gates are `kGate` of the tile of `x` and of `h` (whose change of format is the identity on extended
  reals) with the gate's two weight slabs; the input, cell and output gates are the logistic function or `tanh` of `kLN`
  of their gate with rows 0, 2, 3 of the scale and offset arrays; the forget gate the same with row 1, its offset row
  increased by one; the new cell state is `kLN` of `f · c + i · g` with row 4, its mean entering as a separately computed
  column; the new hidden state is `o · tanh` of it. Read at `(p, q)` they are Spec's functions of row `p` of the
  tiles, at column `q`.
-/
import proofs.«162088_j88587995447884_2_alg».proof.Proof.Gen.KernelIdeal.Skeleton
import proofs.«162088_j88587995447884_2_alg».proof.Proof.KernelOps

noncomputable section

namespace Cert.KernelIdeal.Pay

open Cert.KernelIdeal Cert.KernelIdeal.Gen Cert.KernelIdeal.Ops Idealize.ShloMosaic Idealize.ShloMosaic.ValueIdx Cert.Lstm

open Facts₀ Facts

/-! ## The pointwise operations at an index -/

theorem logistic_apply {s : Shape} {φ : FTy} (a : FVec Ideal s φ) (i : s.Idx) : logistic a i = Ideal.logistic (a i) := rfl
theorem tanh_apply {s : Shape} {φ : FTy} (a : FVec Ideal s φ) (i : s.Idx) : tanh a i = Ideal.tanh (a i) := rfl

/-! ## The body's values as building blocks -/

theorem pay3_apply (x : Vec Ideal S256x1024 .f32) (i : S256x1024.Idx) : k0_pay3 (F := Ideal) x i = x i := rfl
theorem pay4_apply (x : Vec Ideal S256x1024 .f32) (i : S256x1024.Idx) : k0_pay4 (F := Ideal) x i = x i := rfl

theorem pay7_apply (bet : Vec Ideal S5x1024 .f32) (q : Fin 1024) : k0_pay7 (F := Ideal) bet (ix2 (0 : Fin 1) q) = bet (ix2 (0 : Fin 5) q) := row0_apply bet q
theorem pay8_apply (gam : Vec Ideal S5x1024 .f32) (q : Fin 1024) : k0_pay8 (F := Ideal) gam (ix2 (0 : Fin 1) q) = gam (ix2 (0 : Fin 5) q) := row0_apply gam q
theorem pay13_apply (gam : Vec Ideal S5x1024 .f32) (q : Fin 1024) : k0_pay13 (F := Ideal) gam (ix2 (0 : Fin 1) q) = gam (ix2 (1 : Fin 5) q) := row1_apply gam q
theorem pay19_apply (gam : Vec Ideal S5x1024 .f32) (q : Fin 1024) : k0_pay19 (F := Ideal) gam (ix2 (0 : Fin 1) q) = gam (ix2 (4 : Fin 5) q) := row4_apply gam q
theorem pay20_apply (bet : Vec Ideal S5x1024 .f32) (q : Fin 1024) : k0_pay20 (F := Ideal) bet (ix2 (0 : Fin 1) q) = bet (ix2 (4 : Fin 5) q) := row4_apply bet q

/-- Rows 2 and 3 of a scale or offset array, as the body slices them. -/
def gRow2 (v : Vec Ideal S5x1024 .f32) : FVec Ideal S1x1024 .f32 := extractStridedSlice S1x1024 ![2, 0] v Facts₀.slices_S5x1024_o2_0_S1x1024
def gRow3 (v : Vec Ideal S5x1024 .f32) : FVec Ideal S1x1024 .f32 := extractStridedSlice S1x1024 ![3, 0] v Facts₀.slices_S5x1024_o3_0_S1x1024
theorem gRow2_apply (v : Vec Ideal S5x1024 .f32) (q : Fin 1024) : gRow2 v (ix2 (0 : Fin 1) q) = v (ix2 (2 : Fin 5) q) := row2_apply v q
theorem gRow3_apply (v : Vec Ideal S5x1024 .f32) (q : Fin 1024) : gRow3 v (ix2 (0 : Fin 1) q) = v (ix2 (3 : Fin 5) q) := row3_apply v q

/-- The forget gate's offset row: row 1 of the offsets plus one. -/
theorem pay5_apply (bet : Vec Ideal S5x1024 .f32) (q : Fin 1024) :
    k0_pay5 (F := Ideal) bet (ix2 (0 : Fin 1) q) = bet (ix2 (1 : Fin 5) q) + cone := by
  unfold k0_pay5
  rw [addf_apply, row1_apply, broadcast_apply]
  rfl

theorem pay6_eq (x h : Vec Ideal S256x1024 .f32) (w w' : Vec Ideal S1024x1024 .bf16) :
    k0_pay6 (F := Ideal) x h w w' = kGate (k0_pay3 x) (k0_pay4 h) w w' := rfl

/-- The input gate: its mean, variance and filter columns are computed apart, and are those of its layer normalisation. -/
theorem igate_eq (x h : Vec Ideal S256x1024 .f32) (w w' : Vec Ideal S1024x1024 .bf16) (gam bet : Vec Ideal S5x1024 .f32) :
    k0_pay12 (F := Ideal) (k0_pay6 x h w w') (k0_pay7 bet) (k0_pay8 gam) (k0_pay9 x h w w') (k0_pay10 x h w w') (k0_pay11 x h w w')
      = logistic (kLN (kGate (k0_pay3 x) (k0_pay4 h) w w') (k0_pay8 gam) (k0_pay7 bet)) := rfl

theorem fgate_eq (x h : Vec Ideal S256x1024 .f32) (w w' : Vec Ideal S1024x1024 .bf16) (gam bet : Vec Ideal S5x1024 .f32) :
    k0_pay15 (F := Ideal) (k0_pay5 bet) (k0_pay13 gam) (k0_pay14 (k0_pay3 x) (k0_pay4 h) w w')
      = logistic (kLN (kGate (k0_pay3 x) (k0_pay4 h) w w') (k0_pay13 gam) (k0_pay5 bet)) := rfl

theorem ggate_eq (x h : Vec Ideal S256x1024 .f32) (w w' : Vec Ideal S1024x1024 .bf16) (gam bet : Vec Ideal S5x1024 .f32) :
    k0_pay16 (F := Ideal) gam bet (k0_pay3 x) (k0_pay4 h) w w'
      = tanh (kLN (kGate (k0_pay3 x) (k0_pay4 h) w w')
          (gRow2 gam) (gRow2 bet)) := rfl

theorem ogate_eq (x h : Vec Ideal S256x1024 .f32) (w w' : Vec Ideal S1024x1024 .bf16) (gam bet : Vec Ideal S5x1024 .f32) :
    k0_pay17 (F := Ideal) gam bet (k0_pay3 x) (k0_pay4 h) w w'
      = logistic (kLN (kGate (k0_pay3 x) (k0_pay4 h) w w')
          (gRow3 gam) (gRow3 bet)) := rfl

theorem pay18_eq (cx : Vec Ideal S256x1024 .f32) (a b c : FVec Ideal S256x1024 .f32) :
    k0_pay18 (F := Ideal) cx a b c = addf (mulf b cx) (mulf a c) := rfl

/-- The new cell state: the mean column it is given is the mean of what it normalises. -/
theorem cy_eq (cx : Vec Ideal S256x1024 .f32) (a b c : FVec Ideal S256x1024 .f32) (g4 b4 : FVec Ideal S1x1024 .f32) :
    k0_pay1 (F := Ideal) (k0_pay18 cx a b c) g4 b4 (k0_pay21 cx a b c) = kLN (k0_pay18 cx a b c) g4 b4 := rfl

theorem hy_eq (o : FVec Ideal S256x1024 .f32) (cx : Vec Ideal S256x1024 .f32) (a b c : FVec Ideal S256x1024 .f32) (g4 b4 : FVec Ideal S1x1024 .f32) :
    k0_pay2 (F := Ideal) o (k0_pay18 cx a b c) g4 b4 (k0_pay21 cx a b c) = mulf o (tanh (kLN (k0_pay18 cx a b c) g4 b4)) := rfl

/-! ## Row `p` of the tiles -/

/-- The row-wise cell with its three gates' weight rows and its scale and offset rows given one by one. -/
def cyPreR (x h cx : Row) (W0 W0' W1 W1' W2 W2' : Fin 1024 → Row) (g0 b0 g1 b1 g2 b2 : Row) : Row := fun c =>
  Ideal.logistic (lnMul (gate x h W1 W1') g1 (fun c => b1 c + cone) c) * cx c
    + Ideal.logistic (lnMul (gate x h W0 W0') g0 b0 c) * Ideal.tanh (lnMul (gate x h W2 W2') g2 b2 c)

theorem cyPre_eq (x h cx : Row) (wi wh : Fin 4 → Fin 1024 → Row) (gam bet : Fin 5 → Row) :
    cyPre x h cx wi wh gam bet = cyPreR x h cx (wi 0) (wh 0) (wi 1) (wh 1) (wi 2) (wh 2) (gam 0) (bet 0) (gam 1) (bet 1) (gam 2) (bet 2) := rfl

section
variable (x h cx : Vec Ideal S256x1024 .f32) (w0 w0' w1 w1' w2 w2' w3 w3' : Vec Ideal S1024x1024 .bf16) (gam bet : Vec Ideal S5x1024 .f32)

/-- `f · c + i · g` of the tile, the body's value. -/
def cyPreB : FVec Ideal S256x1024 .f32 :=
  k0_pay18 (F := Ideal) cx
    (k0_pay12 (k0_pay6 x h w0 w0') (k0_pay7 bet) (k0_pay8 gam) (k0_pay9 x h w0 w0') (k0_pay10 x h w0 w0') (k0_pay11 x h w0 w0'))
    (k0_pay15 (k0_pay5 bet) (k0_pay13 gam) (k0_pay14 (k0_pay3 x) (k0_pay4 h) w1 w1'))
    (k0_pay16 gam bet (k0_pay3 x) (k0_pay4 h) w2 w2')

theorem cyPreB_apply (p : Fin 256) (q : Fin 1024) :
    cyPreB x h cx w0 w0' w1 w1' w2 w2' gam bet (ix2 p q)
      = cyPreR (fun k => x (ix2 p k)) (fun k => h (ix2 p k)) (fun k => cx (ix2 p k))
          (fun c k => w0 (ix2 c k)) (fun c k => w0' (ix2 c k)) (fun c k => w1 (ix2 c k)) (fun c k => w1' (ix2 c k))
          (fun c k => w2 (ix2 c k)) (fun c k => w2' (ix2 c k))
          (fun c => gam (ix2 (0 : Fin 5) c)) (fun c => bet (ix2 (0 : Fin 5) c)) (fun c => gam (ix2 (1 : Fin 5) c)) (fun c => bet (ix2 (1 : Fin 5) c))
          (fun c => gam (ix2 (2 : Fin 5) c)) (fun c => bet (ix2 (2 : Fin 5) c)) q := by
  unfold cyPreB cyPreR
  rw [pay18_eq, igate_eq, fgate_eq, ggate_eq, addf_apply, mulf_apply, mulf_apply, logistic_apply, logistic_apply, tanh_apply,
    kLN_apply, kLN_apply, kLN_apply]
  simp only [kGate_apply, pay3_apply, pay4_apply, pay7_apply, pay8_apply, pay13_apply, pay5_apply, gRow2_apply] <;> rfl

/-- The new cell state of the tile at `(p, q)`. -/
theorem cyB_apply (p : Fin 256) (q : Fin 1024) :
    k0_pay1 (F := Ideal) (cyPreB x h cx w0 w0' w1 w1' w2 w2' gam bet) (k0_pay19 gam) (k0_pay20 bet)
        (k0_pay21 cx
          (k0_pay12 (k0_pay6 x h w0 w0') (k0_pay7 bet) (k0_pay8 gam) (k0_pay9 x h w0 w0') (k0_pay10 x h w0 w0') (k0_pay11 x h w0 w0'))
          (k0_pay15 (k0_pay5 bet) (k0_pay13 gam) (k0_pay14 (k0_pay3 x) (k0_pay4 h) w1 w1'))
          (k0_pay16 gam bet (k0_pay3 x) (k0_pay4 h) w2 w2')) (ix2 p q)
      = lnMul (cyPreR (fun k => x (ix2 p k)) (fun k => h (ix2 p k)) (fun k => cx (ix2 p k))
          (fun c k => w0 (ix2 c k)) (fun c k => w0' (ix2 c k)) (fun c k => w1 (ix2 c k)) (fun c k => w1' (ix2 c k))
          (fun c k => w2 (ix2 c k)) (fun c k => w2' (ix2 c k))
          (fun c => gam (ix2 (0 : Fin 5) c)) (fun c => bet (ix2 (0 : Fin 5) c)) (fun c => gam (ix2 (1 : Fin 5) c)) (fun c => bet (ix2 (1 : Fin 5) c))
          (fun c => gam (ix2 (2 : Fin 5) c)) (fun c => bet (ix2 (2 : Fin 5) c)))
          (fun c => gam (ix2 (4 : Fin 5) c)) (fun c => bet (ix2 (4 : Fin 5) c)) q := by
  unfold cyPreB
  rw [cy_eq, kLN_apply]
  simp only [pay19_apply, pay20_apply]
  exact congrArg (fun v => lnMul v _ _ q) (funext fun k => cyPreB_apply x h cx w0 w0' w1 w1' w2 w2' gam bet p k)

/-- The new hidden state of the tile at `(p, q)`. -/
theorem hyB_apply (p : Fin 256) (q : Fin 1024) :
    k0_pay2 (F := Ideal) (k0_pay17 gam bet (k0_pay3 x) (k0_pay4 h) w3 w3') (cyPreB x h cx w0 w0' w1 w1' w2 w2' gam bet) (k0_pay19 gam) (k0_pay20 bet)
        (k0_pay21 cx
          (k0_pay12 (k0_pay6 x h w0 w0') (k0_pay7 bet) (k0_pay8 gam) (k0_pay9 x h w0 w0') (k0_pay10 x h w0 w0') (k0_pay11 x h w0 w0'))
          (k0_pay15 (k0_pay5 bet) (k0_pay13 gam) (k0_pay14 (k0_pay3 x) (k0_pay4 h) w1 w1'))
          (k0_pay16 gam bet (k0_pay3 x) (k0_pay4 h) w2 w2')) (ix2 p q)
      = Ideal.logistic (lnMul (gate (fun k => x (ix2 p k)) (fun k => h (ix2 p k)) (fun c k => w3 (ix2 c k)) (fun c k => w3' (ix2 c k)))
            (fun c => gam (ix2 (3 : Fin 5) c)) (fun c => bet (ix2 (3 : Fin 5) c)) q)
        * Ideal.tanh (lnMul (cyPreR (fun k => x (ix2 p k)) (fun k => h (ix2 p k)) (fun k => cx (ix2 p k))
          (fun c k => w0 (ix2 c k)) (fun c k => w0' (ix2 c k)) (fun c k => w1 (ix2 c k)) (fun c k => w1' (ix2 c k))
          (fun c k => w2 (ix2 c k)) (fun c k => w2' (ix2 c k))
          (fun c => gam (ix2 (0 : Fin 5) c)) (fun c => bet (ix2 (0 : Fin 5) c)) (fun c => gam (ix2 (1 : Fin 5) c)) (fun c => bet (ix2 (1 : Fin 5) c))
          (fun c => gam (ix2 (2 : Fin 5) c)) (fun c => bet (ix2 (2 : Fin 5) c)))
          (fun c => gam (ix2 (4 : Fin 5) c)) (fun c => bet (ix2 (4 : Fin 5) c)) q) := by
  have e := cyB_apply x h cx w0 w0' w1 w1' w2 w2' gam bet p q
  unfold cyPreB at e ⊢
  rw [hy_eq, ogate_eq, mulf_apply, tanh_apply, logistic_apply, kLN_apply, ← cy_eq, e]
  simp only [kGate_apply, pay3_apply, pay4_apply, gRow3_apply] <;> rfl

end

end Cert.KernelIdeal.Pay

end
-- ==== Proof.KernelValue.lean ====
/-
  From tiles to arrays: after the kernel's run the two result arrays are the cell's new hidden state and new cell
  state as whole-array functions of the seven arguments (Proof/Spec.lean's `HY` and `CY`).

  Grid point `t` of 16 works on batch rows `256·t … 256·t + 255`: the blocks of `x`, `h`, `c` and of both results at
  point `t` are those rows (block index `(t, 0)`, decided over the grid), while the two weight arrays — written before
  the launch by a change of format, the identity on extended reals, from arguments 3 and 4 — and the scale and offset
  arrays are staged whole (block index `(0, 0)`). The body reads gate `i`'s weight slab as rows `1024·i … 1024·i + 1023`
  of the staged weights. So what point `t` writes back is the block at rows `256·t …` of the whole-array function, and
  the sixteen blocks cover the array: row `r` lies in the block of point `r / 256`.
-/
import proofs.«162088_j88587995447884_2_alg».proof.Proof.KernelBlocks
import proofs.«162088_j88587995447884_2_alg».proof.Proof.KernelPay
import Idealize.ShloMosaic.Lib.StableHlo.Run

set_option maxRecDepth 16384

noncomputable section

namespace Cert.KernelIdeal.Final

open Cert.KernelIdeal Cert.KernelIdeal.Gen Cert.KernelIdeal.Ops Cert.KernelIdeal.Pay Idealize.ShloMosaic Idealize.ShloMosaic.TcCoe Idealize.SL.Sem
open Idealize.ShloMosaic.ValueIdx Cert.Lstm
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the sixteen grid points. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-! ## The weight arrays as the region finds them -/

theorem V_wih (c : Dev nD) : (V m c main_v0 : S4096x1024.Idx → EReal) = (m ((c : Thread nD τ).loc main_arg3) : S4096x1024.Idx → EReal) := by
  dsimp only [Gen.V, Gen.hostOps0]; after_results; rfl

theorem V_whh (c : Dev nD) : (V m c main_v1 : S4096x1024.Idx → EReal) = (m ((c : Thread nD τ).loc main_arg4) : S4096x1024.Idx → EReal) := by
  dsimp only [Gen.V, Gen.hostOps0]; after_results; rfl

/-! ## The input blocks at a point -/

theorem iblk0_apply (c : Dev nD) (t : Fin cfg0.N) (p : Fin 256) (k : Fin 1024) (r : Fin 4096) (hr : r.val = 256 * t.val + p.val) :
    (iblk m c 0 t : Vec Ideal S256x1024 .f32) (ix2 p k) = (m ((c : Thread nD τ).loc main_arg0) : S4096x1024.Idx → EReal) (ix2 r k) := by
  obtain ⟨⟨h0, h1⟩, -⟩ := idx_facts t
  unfold iblk
  rw [View.read_apply]
  show V m c main_arg0 _ = m (c.tc.loc main_arg0) _
  rw [V_main_arg0]
  refine congrArg _ (funext fun a => Fin.ext ?_)
  match a with
  | ⟨0, _⟩ => show win0_0.index t 0 * 256 + 1 * p.val = r.val; rw [h0, hr]; omega
  | ⟨1, _⟩ => show win0_0.index t 1 * 1024 + 1 * k.val = k.val; rw [h1]; omega

theorem iblk1_apply (c : Dev nD) (t : Fin cfg0.N) (p : Fin 256) (k : Fin 1024) (r : Fin 4096) (hr : r.val = 256 * t.val + p.val) :
    (iblk m c 1 t : Vec Ideal S256x1024 .f32) (ix2 p k) = (m ((c : Thread nD τ).loc main_arg1) : S4096x1024.Idx → EReal) (ix2 r k) := by
  obtain ⟨-, ⟨h0, h1⟩, -⟩ := idx_facts t
  unfold iblk
  rw [View.read_apply]
  show V m c main_arg1 _ = m (c.tc.loc main_arg1) _
  rw [V_main_arg1]
  refine congrArg _ (funext fun a => Fin.ext ?_)
  match a with
  | ⟨0, _⟩ => show win0_1.index t 0 * 256 + 1 * p.val = r.val; rw [h0, hr]; omega
  | ⟨1, _⟩ => show win0_1.index t 1 * 1024 + 1 * k.val = k.val; rw [h1]; omega

theorem iblk2_apply (c : Dev nD) (t : Fin cfg0.N) (p : Fin 256) (k : Fin 1024) (r : Fin 4096) (hr : r.val = 256 * t.val + p.val) :
    (iblk m c 2 t : Vec Ideal S256x1024 .f32) (ix2 p k) = (m ((c : Thread nD τ).loc main_arg2) : S4096x1024.Idx → EReal) (ix2 r k) := by
  obtain ⟨-, -, ⟨h0, h1⟩, -⟩ := idx_facts t
  unfold iblk
  rw [View.read_apply]
  show V m c main_arg2 _ = m (c.tc.loc main_arg2) _
  rw [V_main_arg2]
  refine congrArg _ (funext fun a => Fin.ext ?_)
  match a with
  | ⟨0, _⟩ => show win0_2.index t 0 * 256 + 1 * p.val = r.val; rw [h0, hr]; omega
  | ⟨1, _⟩ => show win0_2.index t 1 * 1024 + 1 * k.val = k.val; rw [h1]; omega

/-- The staged input weights: the whole of argument 3. -/
theorem iblk3_apply (c : Dev nD) (t : Fin cfg0.N) (r : Fin 4096) (k : Fin 1024) :
    (iblk m c 3 t : Vec Ideal S4096x1024 .bf16) (ix2 r k) = (m ((c : Thread nD τ).loc main_arg3) : S4096x1024.Idx → EReal) (ix2 r k) := by
  obtain ⟨-, -, -, ⟨h0, h1⟩, -⟩ := idx_facts t
  unfold iblk
  rw [View.read_apply]
  show (V m c main_v0 : S4096x1024.Idx → EReal) _ = _
  rw [V_wih]
  refine congrArg _ (funext fun a => Fin.ext ?_)
  match a with
  | ⟨0, _⟩ => show win0_3.index t 0 * 4096 + 1 * r.val = r.val; rw [h0]; omega
  | ⟨1, _⟩ => show win0_3.index t 1 * 1024 + 1 * k.val = k.val; rw [h1]; omega

theorem iblk4_apply (c : Dev nD) (t : Fin cfg0.N) (r : Fin 4096) (k : Fin 1024) :
    (iblk m c 4 t : Vec Ideal S4096x1024 .bf16) (ix2 r k) = (m ((c : Thread nD τ).loc main_arg4) : S4096x1024.Idx → EReal) (ix2 r k) := by
  obtain ⟨-, -, -, -, ⟨h0, h1⟩, -⟩ := idx_facts t
  unfold iblk
  rw [View.read_apply]
  show (V m c main_v1 : S4096x1024.Idx → EReal) _ = _
  rw [V_whh]
  refine congrArg _ (funext fun a => Fin.ext ?_)
  match a with
  | ⟨0, _⟩ => show win0_4.index t 0 * 4096 + 1 * r.val = r.val; rw [h0]; omega
  | ⟨1, _⟩ => show win0_4.index t 1 * 1024 + 1 * k.val = k.val; rw [h1]; omega

theorem iblk5_apply (c : Dev nD) (t : Fin cfg0.N) (i : Fin 5) (k : Fin 1024) :
    (iblk m c 5 t : Vec Ideal S5x1024 .f32) (ix2 i k) = (m ((c : Thread nD τ).loc main_arg5) : S5x1024.Idx → EReal) (ix2 i k) := by
  obtain ⟨-, -, -, -, -, ⟨h0, h1⟩, -⟩ := idx_facts t
  unfold iblk
  rw [View.read_apply]
  show V m c main_arg5 _ = m (c.tc.loc main_arg5) _
  rw [V_main_arg5]
  refine congrArg _ (funext fun a => Fin.ext ?_)
  match a with
  | ⟨0, _⟩ => show win0_5.index t 0 * 5 + 1 * i.val = i.val; rw [h0]; omega
  | ⟨1, _⟩ => show win0_5.index t 1 * 1024 + 1 * k.val = k.val; rw [h1]; omega

theorem iblk6_apply (c : Dev nD) (t : Fin cfg0.N) (i : Fin 5) (k : Fin 1024) :
    (iblk m c 6 t : Vec Ideal S5x1024 .f32) (ix2 i k) = (m ((c : Thread nD τ).loc main_arg6) : S5x1024.Idx → EReal) (ix2 i k) := by
  obtain ⟨-, -, -, -, -, -, ⟨h0, h1⟩, -⟩ := idx_facts t
  unfold iblk
  rw [View.read_apply]
  show V m c main_arg6 _ = m (c.tc.loc main_arg6) _
  rw [V_main_arg6]
  refine congrArg _ (funext fun a => Fin.ext ?_)
  match a with
  | ⟨0, _⟩ => show win0_6.index t 0 * 5 + 1 * i.val = i.val; rw [h0]; omega
  | ⟨1, _⟩ => show win0_6.index t 1 * 1024 + 1 * k.val = k.val; rw [h1]; omega

/-- Gate `i`'s slab of the staged weights: rows `o … o + 1023`. -/
theorem slab_apply (W : Vec Ideal S4096x1024 .bf16) (o : Nat) (inb : ∀ a, (![o, 0] : Fin 2 → Nat) a + S1024x1024.size a ≤ S4096x1024.size a)
    (cc k : Fin 1024) (r : Fin 4096) (hr : r.val = o + cc.val) :
    View.ld W (Rect.unit (s := S4096x1024) ![o, 0] S1024x1024.size inb) (ix2 cc k) = W (ix2 r k) := by
  show W ((Rect.unit (s := S4096x1024) ![o, 0] S1024x1024.size inb).emb (ix2 cc k)) = _
  refine congrArg W (funext fun a => Fin.ext ?_)
  match a with
  | ⟨0, _⟩ => show o + 1 * cc.val = r.val; omega
  | ⟨1, _⟩ => show 0 + 1 * k.val = k.val; omega

/-! ## A tile of results, from tiles of arguments -/

section Tile
variable (x h cx : Vec Ideal S256x1024 .f32) (wi wh : Vec Ideal S4096x1024 .bf16) (gam bet : Vec Ideal S5x1024 .f32)

theorem slab0 (W : Vec Ideal S4096x1024 .bf16) : (fun cc k => View.ld W r0_2 (ix2 cc k)) = wOf W 0 :=
  funext fun cc => funext fun k => slab_apply W 0 _ cc k _ (by show (0 : Fin 4).val * 1024 + cc.val = 0 + cc.val; simp)
theorem slab1 (W : Vec Ideal S4096x1024 .bf16) : (fun cc k => View.ld W r0_3 (ix2 cc k)) = wOf W 1 :=
  funext fun cc => funext fun k => slab_apply W 1024 _ cc k _ (by show (1 : Fin 4).val * 1024 + cc.val = 1024 + cc.val; simp)
theorem slab2 (W : Vec Ideal S4096x1024 .bf16) : (fun cc k => View.ld W r0_4 (ix2 cc k)) = wOf W 2 :=
  funext fun cc => funext fun k => slab_apply W 2048 _ cc k _ (by show (2 : Fin 4).val * 1024 + cc.val = 2048 + cc.val; simp)
theorem slab3 (W : Vec Ideal S4096x1024 .bf16) : (fun cc k => View.ld W r0_5 (ix2 cc k)) = wOf W 3 :=
  funext fun cc => funext fun k => slab_apply W 3072 _ cc k _ (by show (3 : Fin 4).val * 1024 + cc.val = 3072 + cc.val; simp)

/-- What the body leaves in the cell-state window, at `(p, q)`: the row-wise new cell state of row `p` of the tiles. -/
theorem out8_apply (p : Fin 256) (q : Fin 1024) :
    out0_8 (F := Ideal) x h cx wi wh gam bet (ix2 p q)
      = cyRow (fun k => x (ix2 p k)) (fun k => h (ix2 p k)) (fun k => cx (ix2 p k)) (wOf wi) (wOf wh) (gOf gam) (gOf bet) q := by
  unfold out0_8
  rw [View.canon_unit_zero hz]
  simp only [View.ld_unit_zero (S := S256x1024) hz, View.ld_unit_zero (S := S5x1024) hz]
  refine (cyB_apply x h cx (View.ld wi r0_2) (View.ld wh r0_2) (View.ld wi r0_3) (View.ld wh r0_3) (View.ld wi r0_4) (View.ld wh r0_4) gam bet p q).trans ?_
  unfold cyRow
  rw [cyPre_eq, slab0, slab0, slab1, slab1, slab2, slab2]
  rfl

/-- And in the hidden-state window. -/
theorem out7_apply (p : Fin 256) (q : Fin 1024) :
    out0_7 (F := Ideal) x h cx wi wh gam bet (ix2 p q)
      = hyRow (fun k => x (ix2 p k)) (fun k => h (ix2 p k)) (fun k => cx (ix2 p k)) (wOf wi) (wOf wh) (gOf gam) (gOf bet) q := by
  unfold out0_7
  rw [View.canon_unit_zero hz]
  simp only [View.ld_unit_zero (S := S256x1024) hz, View.ld_unit_zero (S := S5x1024) hz]
  refine (hyB_apply x h cx (View.ld wi r0_2) (View.ld wh r0_2) (View.ld wi r0_3) (View.ld wh r0_3) (View.ld wi r0_4) (View.ld wh r0_4)
    (View.ld wi r0_5) (View.ld wh r0_5) gam bet p q).trans ?_
  unfold hyRow cyRow
  rw [cyPre_eq, slab0, slab0, slab1, slab1, slab2, slab2, slab3, slab3]
  rfl

end Tile

/-! ## What point `t` writes back -/

/-- The seven blocks at point `t`, at row `p`, are the arguments at row `256·t + p`. -/
theorem rows_at (c : Dev nD) (t : Fin cfg0.N) (p : Fin 256) (r : Fin 4096) (hr : r.val = 256 * t.val + p.val) :
    (fun k => (iblk m c 0 t : Vec Ideal S256x1024 .f32) (ix2 p k)) = rowOf (m ((c : Thread nD τ).loc main_arg0)) r
    ∧ (fun k => (iblk m c 1 t : Vec Ideal S256x1024 .f32) (ix2 p k)) = rowOf (m ((c : Thread nD τ).loc main_arg1)) r
    ∧ (fun k => (iblk m c 2 t : Vec Ideal S256x1024 .f32) (ix2 p k)) = rowOf (m ((c : Thread nD τ).loc main_arg2)) r
    ∧ wOf (iblk m c 3 t : Vec Ideal S4096x1024 .bf16) = wOf (m ((c : Thread nD τ).loc main_arg3))
    ∧ wOf (iblk m c 4 t : Vec Ideal S4096x1024 .bf16) = wOf (m ((c : Thread nD τ).loc main_arg4))
    ∧ gOf (iblk m c 5 t : Vec Ideal S5x1024 .f32) = gOf (m ((c : Thread nD τ).loc main_arg5))
    ∧ gOf (iblk m c 6 t : Vec Ideal S5x1024 .f32) = gOf (m ((c : Thread nD τ).loc main_arg6)) :=
  ⟨funext fun k => iblk0_apply m c t p k r hr, funext fun k => iblk1_apply m c t p k r hr, funext fun k => iblk2_apply m c t p k r hr,
    funext fun i => funext fun cc => funext fun k => iblk3_apply m c t _ k,
    funext fun i => funext fun cc => funext fun k => iblk4_apply m c t _ k,
    funext fun i => funext fun cc => iblk5_apply m c t i cc, funext fun i => funext fun cc => iblk6_apply m c t i cc⟩

theorem tile8 (c : Dev nD) (t : Fin cfg0.N) (y : S256x1024.Idx) (i : S4096x1024.Idx)
    (hi0 : (i 0).val = 256 * t.val + (y 0).val) (hi1 : (i 1).val = (y 1).val) :
    out0_8 (F := Ideal) (iblk m c 0 t) (iblk m c 1 t) (iblk m c 2 t) (iblk m c 3 t) (iblk m c 4 t) (iblk m c 5 t) (iblk m c 6 t) y = CY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  obtain ⟨p, q, rfl⟩ : ∃ (p : Fin 256) (q : Fin 1024), y = ix2 p q := ⟨y 0, y 1, eq_ix2 y⟩
  obtain ⟨r, k, rfl⟩ : ∃ (r : Fin 4096) (k : Fin 1024), i = ix2 r k := ⟨i 0, i 1, eq_ix2 i⟩
  obtain rfl : k = q := Fin.ext hi1
  obtain ⟨e0, e1, e2, e3, e4, e5, e6⟩ := rows_at m c t p r hi0
  refine (out8_apply (iblk m c 0 t) (iblk m c 1 t) (iblk m c 2 t) (iblk m c 3 t) (iblk m c 4 t) (iblk m c 5 t) (iblk m c 6 t) p k).trans ?_
  rw [e0, e1, e2, e3, e4, e5, e6]
  rfl

theorem tile7 (c : Dev nD) (t : Fin cfg0.N) (y : S256x1024.Idx) (i : S4096x1024.Idx)
    (hi0 : (i 0).val = 256 * t.val + (y 0).val) (hi1 : (i 1).val = (y 1).val) :
    out0_7 (F := Ideal) (iblk m c 0 t) (iblk m c 1 t) (iblk m c 2 t) (iblk m c 3 t) (iblk m c 4 t) (iblk m c 5 t) (iblk m c 6 t) y = HY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  obtain ⟨p, q, rfl⟩ : ∃ (p : Fin 256) (q : Fin 1024), y = ix2 p q := ⟨y 0, y 1, eq_ix2 y⟩
  obtain ⟨r, k, rfl⟩ : ∃ (r : Fin 4096) (k : Fin 1024), i = ix2 r k := ⟨i 0, i 1, eq_ix2 i⟩
  obtain rfl : k = q := Fin.ext hi1
  obtain ⟨e0, e1, e2, e3, e4, e5, e6⟩ := rows_at m c t p r hi0
  refine (out7_apply (iblk m c 0 t) (iblk m c 1 t) (iblk m c 2 t) (iblk m c 3 t) (iblk m c 4 t) (iblk m c 5 t) (iblk m c 6 t) p k).trans ?_
  rw [e0, e1, e2, e3, e4, e5, e6]
  rfl

/-- Point `t` writes back block `t` of the new cell state. -/
theorem flushed8_eq (c : Dev nD) (t : Fin cfg0.N) :
    (dats m 0 c).flushed 8 t = ((cfg0.win 8).blk t).view.read (Elt Ideal) (CY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  obtain ⟨-, -, -, -, -, -, -, -, ⟨h0, h1⟩⟩ := idx_facts t
  rw [ValueP.flushed8]
  funext y
  refine tile8 m c t y _ ?_ ?_
  · show win0_8.index t 0 * 256 + 1 * (y 0).val = 256 * t.val + (y 0).val
    rw [h0]; omega
  · show win0_8.index t 1 * 1024 + 1 * (y 1).val = (y 1).val
    rw [h1]; omega

/-- Point `t` writes back block `t` of the new hidden state. -/
theorem flushed7_eq (c : Dev nD) (t : Fin cfg0.N) :
    (dats m 0 c).flushed 7 t = ((cfg0.win 7).blk t).view.read (Elt Ideal) (HY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  obtain ⟨-, -, -, -, -, -, -, ⟨h0, h1⟩, -⟩ := idx_facts t
  rw [ValueP.flushed7]
  funext y
  refine tile7 m c t y _ ?_ ?_
  · show win0_7.index t 0 * 256 + 1 * (y 0).val = 256 * t.val + (y 0).val
    rw [h0]; omega
  · show win0_7.index t 1 * 1024 + 1 * (y 1).val = (y 1).val
    rw [h1]; omega

/-! ## The sixteen blocks cover each result array -/

theorem mem_blk7 (t : Fin cfg0.N) (i : S4096x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v2_0).slice (win0_7.rect t)).set ↔ _
  rw [View.set_slice_whole, Rect.mem_set_unit]
  exact Iff.rfl

theorem mem_blk8 (t : Fin cfg0.N) (i : S4096x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v2_1).slice (win0_8.rect t)).set ↔ _
  rw [View.set_slice_whole, Rect.mem_set_unit]
  exact Iff.rfl

/-- Row `r` is in the block of point `r / 256`. -/
theorem cover7 (i : S4096x1024.Idx) : ∃ t : Fin cfg0.N, (cfg0.win 7).flush t = true ∧ i ∈ ((cfg0.win 7).blk t).view.set := by
  have hN : cfg0.N = 16 := N_0
  have hi0 : (i 0).val < 4096 := (i 0).isLt
  have hi1 : (i 1).val < 1024 := (i 1).isLt
  refine ⟨⟨(i 0).val / 256, by rw [hN]; omega⟩, flush0_7 _, ?_⟩
  obtain ⟨-, -, -, -, -, -, -, ⟨h0, h1⟩, -⟩ := idx_facts ⟨(i 0).val / 256, by rw [hN]; omega⟩
  rw [mem_blk7]
  intro a
  match a with
  | ⟨0, _⟩ => show win0_7.index _ 0 * 256 ≤ (i 0).val ∧ (i 0).val < win0_7.index _ 0 * 256 + 256; rw [h0]; show (i 0).val / 256 * 256 ≤ (i 0).val ∧ (i 0).val < (i 0).val / 256 * 256 + 256; omega
  | ⟨1, _⟩ => show win0_7.index _ 1 * 1024 ≤ (i 1).val ∧ (i 1).val < win0_7.index _ 1 * 1024 + 1024; rw [h1]; omega

theorem cover8 (i : S4096x1024.Idx) : ∃ t : Fin cfg0.N, (cfg0.win 8).flush t = true ∧ i ∈ ((cfg0.win 8).blk t).view.set := by
  have hN : cfg0.N = 16 := N_0
  have hi0 : (i 0).val < 4096 := (i 0).isLt
  have hi1 : (i 1).val < 1024 := (i 1).isLt
  refine ⟨⟨(i 0).val / 256, by rw [hN]; omega⟩, flush0_8 _, ?_⟩
  obtain ⟨-, -, -, -, -, -, -, -, ⟨h0, h1⟩⟩ := idx_facts ⟨(i 0).val / 256, by rw [hN]; omega⟩
  rw [mem_blk8]
  intro a
  match a with
  | ⟨0, _⟩ => show win0_8.index _ 0 * 256 ≤ (i 0).val ∧ (i 0).val < win0_8.index _ 0 * 256 + 256; rw [h0]; show (i 0).val / 256 * 256 ≤ (i 0).val ∧ (i 0).val < (i 0).val / 256 * 256 + 256; omega
  | ⟨1, _⟩ => show win0_8.index _ 1 * 1024 ≤ (i 1).val ∧ (i 1).val < win0_8.index _ 1 * 1024 + 1024; rw [h1]; omega

/-! ## The result arrays, and the run -/

theorem final7 (c : Dev nD) : (dats m 0 c).arrAt 7 cfg0.N = HY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 7 (HY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed7_eq m c t) cover7

theorem final8 (c : Dev nD) : (dats m 0 c).arrAt 8 cfg0.N = CY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (dats m 0 c).arrAt_eq_of_cover 8 (CY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (fun t _ => flushed8_eq m c t) cover8

/-- Every weakly fair execution of the idealized kernel ends with the two result arrays at the cell's new hidden and
    cell states of the arguments, the arguments unchanged. -/
theorem run : θ_run (defs (F := Ideal)) (onTc (τ := τ) (main (F := Ideal))) ⟨m, fun _ => 0, ρ⟩ fun r => ∀ c : Dev nD,
      r.2.mem ((c : Thread nD τ).loc main_v2_0) = HY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v2_1) = CY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (ValueP.run_blocks m ρ)

end Cert.KernelIdeal.Final

end
-- ==== Proof.RefValue.lean ====
/-
  The reference program's two results are the layer-normalised LSTM cell of the specification, index by index.

  The reference's run is stated over named intermediates: the four gates' pre-activations together (one [4096, 4096]
  array, the sum of two matrix products with transposed weights), its four blocks of 1024 columns, and for each
  normalisation the mean column, the centred array and the variance column. Read at an index (r, c):
   * a matrix product with a transpose is the sum over k of x(r, k) · W(j, k); a block of columns from o on reads
     column o + c, so block i of the gates at (r, c) is gate i's pre-activation of batch row r at c;
   * a sum along the rows from 0, made a column and divided by 1024, is the row's mean; the same of the squared
     centred array is its variance around that mean;
   * the indicator [σ² < ε] is the comparison's bit read as a number, the regularised variance (σ² + ε) + w·[σ² < ε];
   * row i of a [5, 1024] array, made a vector and broadcast back over all rows, reads the array at (i, c);
   * the reference divides the centred row by the square root of the regularised variance; the specification
     multiplies by its reciprocal square root, and the two agree at every extended-real row because the
     regularised variance is positive;
   * 1 / (1 + e^(-x)), with both 1 the constant 1.0, is the logistic function; the forget gate's bias 1 is added after
     the affine map, which by associativity of + is the affine map with offset b + 1.
  With these the reference's cell state is the normalisation of f · c + i · g and its hidden state o · tanh of it,
  exactly as the specification writes them.
-/
import Idealize.ShloMosaic.Lib.ValueIdx
import Idealize.ShloMosaic.Lib.ValueLayout
import Idealize.ShloMosaic.Lib.Pipeline.Value
import Idealize.ShloMosaic.PureOps.Ideal.Laws
import proofs.«162088_j88587995447884_2_alg».proof.Proof.Gen.ReferenceIdeal.Run
import proofs.«162088_j88587995447884_2_alg».proof.Proof.Spec
import proofs.«162088_j88587995447884_2_alg».proof.Proof.Consts

noncomputable section

namespace Cert.ReferenceIdeal.RefValue

open Cert.ReferenceIdeal Cert.ReferenceIdeal.Gen Cert.ReferenceIdeal.Value Idealize.ShloMosaic Idealize.ShloMosaic.ValueIdx
  Idealize.ShloMosaic.TcCoe Idealize.SL.Sem Idealize.ShloMosaic.StableHlo Cert.Lstm

/-! ## The host's elementwise operations read at an index (the ideal instance's, by definition) -/

section Elementwise
variable {s : Shape} {φ : FTy}

theorem hdivf_apply (a b : FVec Ideal s φ) (i : s.Idx) : Host.divf a b i = Ideal.div (a i) (b i) := rfl
theorem hsqrt_apply (a : FVec Ideal s φ) (i : s.Idx) : Host.sqrt a i = Ideal.sqrt (a i) := rfl
theorem htanh_apply (a : FVec Ideal s φ) (i : s.Idx) : Host.tanh a i = Ideal.tanh (a i) := rfl
theorem uitofp_apply {w : Nat} (x : IVec s w) (i : s.Idx) : (uitofp φ x : FVec Ideal s φ) i = (((x i).toNat : ℝ) : EReal) := rfl

end Elementwise

/-! ## Broadcasts and the rows of the scale and offset arrays -/

/-- A scalar constant broadcast to a column reads its value everywhere. -/
theorem bcastS_col_apply (b : BitVec 32) (j : S4096x1.Idx) :
    broadcastInDim S4096x1 ![] bcast_S_S4096x1 (constant (F := Ideal) S_ .f32 b) j = Ideal.ofBits .f32 b := rfl

/-- A scalar constant broadcast to the whole array reads its value everywhere. -/
theorem bcastS_all_apply (b : BitVec 32) (j : S4096x1024.Idx) :
    broadcastInDim S4096x1024 ![] bcast_S_S4096x1024 (constant (F := Ideal) S_ .f32 b) j = Ideal.ofBits .f32 b := rfl

/-- A column broadcast along the rows reads, at `(r, c)`, the column's entry `r`. -/
theorem bcastCol_apply (x : FVec Ideal S4096x1 .f32) (r : Fin 4096) (c : Fin 1024) :
    broadcastInDim S4096x1024 ![0, 1] bcast_S4096x1_S4096x1024_0_1 x (ix2 r c) = x (ix2 r (0 : Fin 1)) :=
  broadcastInDim_apply _ _ x _ _ fun a => by
    match a with
    | ⟨0, _⟩ => rfl
    | ⟨1, _⟩ => rfl

/-- A vector made a column reads, at `(r, u)`, the vector's entry `r`. -/
theorem bcastVec_apply (x : FVec Ideal S4096 .f32) (r : Fin 4096) (u : Fin 1) :
    broadcastInDim S4096x1 ![0] bcast_S4096_S4096x1_0 x (ix2 r u) = x (ix1 r) :=
  broadcastInDim_apply _ _ x _ _ fun a => by
    match a with
    | ⟨0, _⟩ => rfl

/-- Row `i` of a `[5, 1024]` array, made a vector and broadcast over all rows, reads at `(r, c)` the array at `(i, c)`. -/
theorem rowBcast_apply (i : Fin 5) (o : Nat) (ho : i.val = o) (G : FVec Ideal S5x1024 .f32) (h : S5x1024.Slices ![o, 0] S1x1024)
    (r : Fin 4096) (c : Fin 1024) :
    broadcastInDim S4096x1024 ![0, 1] bcast_S1x1024_S4096x1024_0_1
        (broadcastInDim S1x1024 ![1] bcast_S1024_S1x1024_1
          (shapeCast S1024 (extractStridedSlice S1x1024 ![o, 0] G h) shapeCasts_S1x1024_S1024)) (ix2 r c)
      = gOf G i c := by
  refine (broadcastInDim_apply _ _ _ _ (ix2 (0 : Fin 1) c) fun a => ?_).trans ?_
  · match a with
    | ⟨0, _⟩ => rfl
    | ⟨1, _⟩ => rfl
  refine (broadcastInDim_apply _ _ _ _ (ix1 c) fun a => ?_).trans ?_
  · match a with
    | ⟨0, _⟩ => rfl
  rw [shapeCast_1a_a_apply]
  exact slice2_axis0_apply o G h (0 : Fin 1) c i (by rw [ho]; rfl)

/-! ## A row's mean and variance -/

/-- A host sum along the rows from `0`, made a column and divided by the constant `1024.0`, read at `(r, u)`. -/
theorem meanCol_apply (v : FVec Ideal S4096x1024 .f32) (r : Fin 4096) (u : Fin 1) :
    Host.divf (broadcastInDim S4096x1 ![0] bcast_S4096_S4096x1_0
        (Host.reduceAdd v (constant S_ .f32 0x00000000#32) reducesTo_S4096x1024_S4096_d1 h_S_))
      (broadcastInDim S4096x1 ![] bcast_S_S4096x1 (constant S_ .f32 0x44800000#32)) (ix2 r u)
      = Ideal.div (∑ k : Fin 1024, v (ix2 r k)) c1024 := by
  rw [hdivf_apply, bcastVec_apply, bcastS_col_apply]
  show Ideal.div (Ideal.hostReduceAdd reducesTo_S4096x1024_S4096_d1 v (Ideal.ofBits .f32 0x00000000#32) (ix1 r)) c1024 = _
  rw [Ideal.hostReduceAdd_single reducesTo_S4096x1024_S4096_d1 (by decide), Ideal.ofBits_zero_f32, zero_add]
  refine congrArg (Ideal.div · c1024) (Finset.sum_congr rfl fun k _ => ?_)
  exact congrArg v (funext fun a => Fin.ext (by match a with | ⟨0, _⟩ => rfl | ⟨1, _⟩ => rfl))

/-! ## One layer normalisation, read at an index -/

/-- The reference's normalised-affine expression over an array `v` whose mean column is `m`, centred array `w` and
    variance column `s`: at `(r, c)`, where row `r` of `v` is `R` and the scale and offset arrays read `g c` and `b c`, it is
    the specification's layer normalisation of `R`. -/
theorem ln_apply (v w : FVec Ideal S4096x1024 .f32) (m s : FVec Ideal S4096x1 .f32) (gB bB : FVec Ideal S4096x1024 .f32)
    (hm : m = Host.divf (broadcastInDim S4096x1 ![0] bcast_S4096_S4096x1_0
        (Host.reduceAdd v (constant S_ .f32 0x00000000#32) reducesTo_S4096x1024_S4096_d1 h_S_))
      (broadcastInDim S4096x1 ![] bcast_S_S4096x1 (constant S_ .f32 0x44800000#32)))
    (hw : w = subf v (broadcastInDim S4096x1024 ![0, 1] bcast_S4096x1_S4096x1024_0_1 m))
    (hs : s = Host.divf (broadcastInDim S4096x1 ![0] bcast_S4096_S4096x1_0
        (Host.reduceAdd (mulf w w) (constant S_ .f32 0x00000000#32) reducesTo_S4096x1024_S4096_d1 h_S_))
      (broadcastInDim S4096x1 ![] bcast_S_S4096x1 (constant S_ .f32 0x44800000#32)))
    (r : Fin 4096) (c : Fin 1024) (R g b : Row)
    (hR : ∀ k, v (ix2 r k) = R k) (hg : gB (ix2 r c) = g c) (hb : bB (ix2 r c) = b c) :
    addf (mulf gB (Host.divf (subf v (broadcastInDim S4096x1024 ![0, 1] bcast_S4096x1_S4096x1024_0_1 m))
        (broadcastInDim S4096x1024 ![0, 1] bcast_S4096x1_S4096x1024_0_1
          (Host.sqrt (addf (addf s (broadcastInDim S4096x1 ![] bcast_S_S4096x1 (constant S_ .f32 0x2B8CBCCC#32)))
            (mulf (broadcastInDim S4096x1 ![] bcast_S_S4096x1 (constant S_ .f32 0x3C23D70A#32))
              (uitofp .f32 (cmpf .olt s (broadcastInDim S4096x1 ![] bcast_S_S4096x1 (constant S_ .f32 0x2B8CBCCC#32)))))))))) bB (ix2 r c)
      = lnMul R g b c := by
  have em : m (ix2 r (0 : Fin 1)) = mean R := by
    rw [hm, meanCol_apply]
    exact congrArg (Ideal.div · c1024) (Finset.sum_congr rfl fun k _ => hR k)
  have ew : ∀ k, w (ix2 r k) = R k - mean R := fun k => by
    rw [hw, subf_apply, bcastCol_apply, em, hR]
  have es : s (ix2 r (0 : Fin 1)) = var R := by
    rw [hs, meanCol_apply]
    show Ideal.div (∑ k : Fin 1024, w (ix2 r k) * w (ix2 r k)) c1024 = varAt R (mean R)
    simp only [ew]
    rfl
  rw [lnMul_eq_lnDiv, addf_apply, mulf_apply, hdivf_apply, subf_apply, bcastCol_apply, bcastCol_apply, hsqrt_apply,
    addf_apply, addf_apply, mulf_apply, uitofp_apply, cmpf_apply, em, es, hR, hg, hb]
  rfl

/-- The same with the scale and offset rows `i` of the two `[5, 1024]` arguments, as the reference takes them. -/
theorem lnRow_apply (G B : FVec Ideal S5x1024 .f32) (v w : FVec Ideal S4096x1024 .f32) (m s : FVec Ideal S4096x1 .f32)
    (hm : m = Host.divf (broadcastInDim S4096x1 ![0] bcast_S4096_S4096x1_0
        (Host.reduceAdd v (constant S_ .f32 0x00000000#32) reducesTo_S4096x1024_S4096_d1 h_S_))
      (broadcastInDim S4096x1 ![] bcast_S_S4096x1 (constant S_ .f32 0x44800000#32)))
    (hw : w = subf v (broadcastInDim S4096x1024 ![0, 1] bcast_S4096x1_S4096x1024_0_1 m))
    (hs : s = Host.divf (broadcastInDim S4096x1 ![0] bcast_S4096_S4096x1_0
        (Host.reduceAdd (mulf w w) (constant S_ .f32 0x00000000#32) reducesTo_S4096x1024_S4096_d1 h_S_))
      (broadcastInDim S4096x1 ![] bcast_S_S4096x1 (constant S_ .f32 0x44800000#32)))
    (i : Fin 5) (o : Nat) (ho : i.val = o) (h : S5x1024.Slices ![o, 0] S1x1024)
    (r : Fin 4096) (c : Fin 1024) (R : Row) (hR : ∀ k, v (ix2 r k) = R k) :
    addf (mulf (broadcastInDim S4096x1024 ![0, 1] bcast_S1x1024_S4096x1024_0_1
          (broadcastInDim S1x1024 ![1] bcast_S1024_S1x1024_1
            (shapeCast S1024 (extractStridedSlice S1x1024 ![o, 0] G h) shapeCasts_S1x1024_S1024)))
        (Host.divf (subf v (broadcastInDim S4096x1024 ![0, 1] bcast_S4096x1_S4096x1024_0_1 m))
        (broadcastInDim S4096x1024 ![0, 1] bcast_S4096x1_S4096x1024_0_1
          (Host.sqrt (addf (addf s (broadcastInDim S4096x1 ![] bcast_S_S4096x1 (constant S_ .f32 0x2B8CBCCC#32)))
            (mulf (broadcastInDim S4096x1 ![] bcast_S_S4096x1 (constant S_ .f32 0x3C23D70A#32))
              (uitofp .f32 (cmpf .olt s (broadcastInDim S4096x1 ![] bcast_S_S4096x1 (constant S_ .f32 0x2B8CBCCC#32))))))))))
        (broadcastInDim S4096x1024 ![0, 1] bcast_S1x1024_S4096x1024_0_1
          (broadcastInDim S1x1024 ![1] bcast_S1024_S1x1024_1
            (shapeCast S1024 (extractStridedSlice S1x1024 ![o, 0] B h) shapeCasts_S1x1024_S1024))) (ix2 r c)
      = lnMul R (gOf G i) (gOf B i) c :=
  ln_apply v w m s _ _ hm hw hs r c R _ _ hR (rowBcast_apply i o ho G h r c) (rowBcast_apply i o ho B h r c)

/-- An offset added after the affine map is the affine map with that much more offset. -/
theorem lnMul_add (R g b : Row) (c : Fin 1024) (t : EReal) : lnMul R g b c + t = lnMul R g (fun c => b c + t) c := by
  unfold lnMul
  exact add_assoc _ _ _

/-- `1 / (1 + e^(-x))` with both ones the constant `1.0` is the logistic function. -/
theorem sigm_apply (a : FVec Ideal S4096x1024 .f32) (i : S4096x1024.Idx) :
    Host.divf (broadcastInDim S4096x1024 ![] bcast_S_S4096x1024 (constant S_ .f32 0x3F800000#32))
        (addf (broadcastInDim S4096x1024 ![] bcast_S_S4096x1024 (constant S_ .f32 0x3F800000#32)) (Host.exp (Host.negf a))) i
      = Ideal.logistic (a i) := by
  show Ideal.div (Ideal.ofBits .f32 0x3F800000#32) (Ideal.ofBits .f32 0x3F800000#32 + Ideal.exp (-(a i)))
    = Ideal.div 1 (1 + Ideal.exp (-(a i)))
  rw [Cert.Consts.ofBits_one]

/-! ## The matrix products and the four gates -/

/-- The reference's one contraction: rows of the left operand against columns of the right one. -/
abbrev D : DotDims S4096x1024 S1024x4096 S4096x4096 := dot_S4096x1024_S1024x4096_S4096x4096_1_0_0_1_n_n

theorem lhs_0 (i : S4096x4096.Idx) (q : D.contr.Idx) : (D.lhsIdx i q 0).val = (i 0).val := by
  unfold DotDims.lhsIdx
  rw [dif_neg (show ¬(0 : Fin S4096x1024.rank) ∈ D.lhsBatch by decide), dif_pos (show (0 : Fin S4096x1024.rank) ∈ D.lhsNonContracting by decide)]
  rfl
theorem lhs_1 (i : S4096x4096.Idx) (q : D.contr.Idx) : (D.lhsIdx i q 1).val = (q ⟨0, by decide⟩).val :=
  D.lhsIdx_val_of_single rfl i q
theorem rhs_0 (i : S4096x4096.Idx) (q : D.contr.Idx) : (D.rhsIdx i q 0).val = (q ⟨0, by decide⟩).val :=
  D.rhsIdx_val_of_single rfl i q
theorem rhs_1 (i : S4096x4096.Idx) (q : D.contr.Idx) : (D.rhsIdx i q 1).val = (i 1).val := by
  unfold DotDims.rhsIdx
  rw [dif_neg (show ¬(1 : Fin S1024x4096.rank) ∈ D.rhsBatch by decide), dif_pos (show (1 : Fin S1024x4096.rank) ∈ D.rhsNonContracting by decide)]
  rfl

/-- A row of `x` against a row of `W`: the product with the transpose, read at `(r, j)`. -/
theorem dot_apply (x W : FVec Ideal S4096x1024 .f32) (r j : Fin 4096) :
    Host.dotGeneral D none x (transpose S1024x4096 [1, 0] W transposes_S4096x1024_S1024x4096_1_0) (ix2 r j)
      = ∑ k : Fin 1024, x (ix2 r k) * W (ix2 j k) := by
  simp only [Host.dotGeneral]
  rw [Ideal.dotGeneral_apply, ← Equiv.sum_comp (ValueIdx.contrEquiv1 D 1024 rfl rfl).symm]
  refine Finset.sum_congr rfl fun k _ => ?_
  have hk := ValueIdx.contrEquiv1_symm_val D 1024 rfl rfl k
  have el : D.lhsIdx (ix2 r j) ((ValueIdx.contrEquiv1 D 1024 rfl rfl).symm k) = ix2 r k := funext fun a => Fin.ext (by
    match a with
    | ⟨0, _⟩ => exact lhs_0 _ _
    | ⟨1, _⟩ => exact (lhs_1 _ _).trans hk)
  have er : D.rhsIdx (ix2 r j) ((ValueIdx.contrEquiv1 D 1024 rfl rfl).symm k) = ix2 k j := funext fun a => Fin.ext (by
    match a with
    | ⟨0, _⟩ => exact (rhs_0 _ _).trans hk
    | ⟨1, _⟩ => exact rhs_1 _ _)
  rw [el, er, transpose_ix2_apply]

section Cell
variable (V0 : Valuation τ sig (Elt Ideal))

/-- The seven arguments as arrays of extended reals. -/
abbrev aX : FVec Ideal S4096x1024 .f32 := V0 (Proc.devRef .tc main_arg0)
abbrev aH : FVec Ideal S4096x1024 .f32 := V0 (Proc.devRef .tc main_arg1)
abbrev aC : FVec Ideal S4096x1024 .f32 := V0 (Proc.devRef .tc main_arg2)
abbrev aWI : FVec Ideal S4096x1024 .f32 := V0 (Proc.devRef .tc main_arg3)
abbrev aWH : FVec Ideal S4096x1024 .f32 := V0 (Proc.devRef .tc main_arg4)
abbrev aG : FVec Ideal S5x1024 .f32 := V0 (Proc.devRef .tc main_arg5)
abbrev aB : FVec Ideal S5x1024 .f32 := V0 (Proc.devRef .tc main_arg6)

/-- All four gates' pre-activations at `(r, j)`: row `r` of `x` against row `j` of the input weights plus row `r` of `h`
    against row `j` of the hidden weights. -/
theorem v4_apply (r j : Fin 4096) :
    res_main_v4 V0 (ix2 r j)
      = (∑ k : Fin 1024, aX V0 (ix2 r k) * aWI V0 (ix2 j k)) + ∑ k : Fin 1024, aH V0 (ix2 r k) * aWH V0 (ix2 j k) := by
  unfold res_main_v4
  rw [addf_apply]
  exact congrArg₂ (· + ·) (dot_apply _ _ r j) (dot_apply _ _ r j)

/-- Block `i` of 1024 columns of the gates, at `(r, c)`, is gate `i`'s pre-activation of batch row `r` at `c`. -/
theorem gateSlice_apply (i : Fin 4) (o : Nat) (ho : i.val * 1024 = o) (h : S4096x4096.Slices ![0, o] S4096x1024)
    (r : Fin 4096) (c : Fin 1024) :
    extractStridedSlice S4096x1024 ![0, o] (res_main_v4 V0) h (ix2 r c)
      = gate (rowOf (aX V0) r) (rowOf (aH V0) r) (wOf (aWI V0) i) (wOf (aWH V0) i) c := by
  have hlt : i.val * 1024 + c.val < 4096 := by have := i.isLt; have := c.isLt; omega
  rw [slice2_axis1_apply o (res_main_v4 V0) h r c ⟨i.val * 1024 + c.val, hlt⟩ (by rw [← ho]), v4_apply]
  rfl

theorem v5_apply (r : Fin 4096) (c : Fin 1024) :
    res_main_v5 V0 (ix2 r c) = gate (rowOf (aX V0) r) (rowOf (aH V0) r) (wOf (aWI V0) 0) (wOf (aWH V0) 0) c :=
  gateSlice_apply V0 0 0 rfl _ r c
theorem v6_apply (r : Fin 4096) (c : Fin 1024) :
    res_main_v6 V0 (ix2 r c) = gate (rowOf (aX V0) r) (rowOf (aH V0) r) (wOf (aWI V0) 1) (wOf (aWH V0) 1) c :=
  gateSlice_apply V0 1 1024 rfl _ r c
theorem v7_apply (r : Fin 4096) (c : Fin 1024) :
    res_main_v7 V0 (ix2 r c) = gate (rowOf (aX V0) r) (rowOf (aH V0) r) (wOf (aWI V0) 2) (wOf (aWH V0) 2) c :=
  gateSlice_apply V0 2 2048 rfl _ r c
theorem v8_apply (r : Fin 4096) (c : Fin 1024) :
    res_main_v8 V0 (ix2 r c) = gate (rowOf (aX V0) r) (rowOf (aH V0) r) (wOf (aWI V0) 3) (wOf (aWH V0) 3) c :=
  gateSlice_apply V0 3 3072 rfl _ r c

/-! ## The cell -/

/-- The new cell state before its normalisation, `f · c + i · g`, at `(r, c)`. -/
theorem cyPre_apply (r : Fin 4096) (c : Fin 1024) :
    res_main_v168 V0 (ix2 r c)
      = cyPre (rowOf (aX V0) r) (rowOf (aH V0) r) (rowOf (aC V0) r) (wOf (aWI V0)) (wOf (aWH V0)) (gOf (aG V0)) (gOf (aB V0)) c := by
  unfold res_main_v168
  rw [addf_apply, mulf_apply, mulf_apply, sigm_apply, sigm_apply, htanh_apply, addf_apply, bcastS_all_apply,
    lnRow_apply (aG V0) (aB V0) (res_main_v6 V0) (res_main_v52 V0) (res_main_v50 V0) (res_main_v57 V0) rfl rfl rfl
      1 1 rfl _ r c _ (fun k => v6_apply V0 r k),
    lnRow_apply (aG V0) (aB V0) (res_main_v5 V0) (res_main_v18 V0) (res_main_v16 V0) (res_main_v23 V0) rfl rfl rfl
      0 0 rfl _ r c _ (fun k => v5_apply V0 r k),
    lnRow_apply (aG V0) (aB V0) (res_main_v7 V0) (res_main_v86 V0) (res_main_v84 V0) (res_main_v91 V0) rfl rfl rfl
      2 2 rfl _ r c _ (fun k => v7_apply V0 r k),
    lnMul_add]
  rfl

/-- The new cell state. -/
theorem cy_eq : val5 V0 (Proc.devRef .tc main_v202)
    = CY (aX V0) (aH V0) (aC V0) (aWI V0) (aWH V0) (aG V0) (aB V0) := by
  rw [val5_main_v202]
  funext j
  obtain ⟨r, c, rfl⟩ : ∃ (r : Fin 4096) (c : Fin 1024), j = ix2 r c := ⟨j 0, j 1, eq_ix2 j⟩
  rw [lnRow_apply (aG V0) (aB V0) (res_main_v168 V0) (res_main_v178 V0) (res_main_v176 V0) (res_main_v183 V0) rfl rfl rfl
      4 4 rfl _ r c _ (fun k => cyPre_apply V0 r k)]
  rfl

/-- The new hidden state. -/
theorem hy_eq : val5 V0 (Proc.devRef .tc main_v204)
    = HY (aX V0) (aH V0) (aC V0) (aWI V0) (aWH V0) (aG V0) (aB V0) := by
  rw [val5_main_v204]
  funext j
  obtain ⟨r, c, rfl⟩ : ∃ (r : Fin 4096) (c : Fin 1024), j = ix2 r c := ⟨j 0, j 1, eq_ix2 j⟩
  rw [mulf_apply, sigm_apply, htanh_apply,
    lnRow_apply (aG V0) (aB V0) (res_main_v8 V0) (res_main_v120 V0) (res_main_v118 V0) (res_main_v125 V0) rfl rfl rfl
      3 3 rfl _ r c _ (fun k => v8_apply V0 r k),
    lnRow_apply (aG V0) (aB V0) (res_main_v168 V0) (res_main_v178 V0) (res_main_v176 V0) (res_main_v183 V0) rfl rfl rfl
      4 4 rfl _ r c _ (fun k => cyPre_apply V0 r k)]
  rfl

end Cell

/-! ## The run -/

/-- On every device, from any memory with zero counters, every weakly fair execution of the reference ends with its two
    results the specification's hidden and cell states of the seven arguments' launch contents, the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v204)
          = Cert.Lstm.HY (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_v202)
          = Cert.Lstm.CY (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
              (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
      ⟨(h c).1.trans ((val5_main_v204 (launchContents m c)).symm.trans (hy_eq (launchContents m c))),
        (h c).2.2.1.trans ((val5_main_v202 (launchContents m c)).symm.trans (cy_eq (launchContents m c))),
        (h c).2.2.2⟩)
    (Cert.ReferenceIdeal.Value.run (F := Ideal) m ρ)

end Cert.ReferenceIdeal.RefValue

end
-- ==== Proof.lean ====
/-
  The certificate of the layer-normalised LSTM cell: a kernel that works on sixteen tiles of 256 batch rows, against a
  plain reference, as extended reals.

  Both programs compute, for every batch row, four gates (two 1024-term dot products each), layer-normalise them, pass them
  through the logistic function or `tanh`, form `f · c + i · g`, layer-normalise it into the new cell state, and return
  `o · tanh` of it as the new hidden state (twice) and the cell state. Their texts differ in four places, none of which
  changes a value on the extended reals: the kernel multiplies the centred row by the reciprocal square root of the
  regularised variance where the reference divides by its square root — equal because that variance is positive at every
  row (a mean of squares, plus a positive constant, plus a non-negative filter term), with no appeal to the inputs being
  finite; the kernel adds the forget gate's bias to the offset row before the affine step where the reference adds it after
  — associativity of addition; the kernel's logistic operation is by definition the quotient `1 / (1 + e^(-x))` the
  reference spells out; and the kernel's changes of float format and its tiling over the batch are the identity and a
  re-indexing. Proof/Spec.lean states the cell once, row by row; Proof/KernelValue.lean reads the kernel's two result
  arrays as that function of the arguments and Proof/RefValue.lean the reference's; here the five claims are assembled.
  The frames of the two kernel programs are the generated ones, the reference's frame is its run with the results
  dropped, and the idealisation rewrote nothing, so `preserves` is trivial.
-/
import proofs.«162088_j88587995447884_2_alg».proof.Defs
import proofs.«162088_j88587995447884_2_alg».proof.Proof.Gen.Kernel
import proofs.«162088_j88587995447884_2_alg».proof.Proof.Gen.Kernel.Skeleton
import proofs.«162088_j88587995447884_2_alg».proof.Proof.Gen.Kernel.Launch
import proofs.«162088_j88587995447884_2_alg».proof.Proof.Gen.Kernel.Points
import proofs.«162088_j88587995447884_2_alg».proof.Proof.Gen.Kernel.Frame
import proofs.«162088_j88587995447884_2_alg».proof.Proof.Gen.KernelIdeal
import proofs.«162088_j88587995447884_2_alg».proof.Proof.Gen.KernelIdeal.Skeleton
import proofs.«162088_j88587995447884_2_alg».proof.Proof.Gen.KernelIdeal.Launch
import proofs.«162088_j88587995447884_2_alg».proof.Proof.Gen.KernelIdeal.Points
import proofs.«162088_j88587995447884_2_alg».proof.Proof.Gen.KernelIdeal.Frame
import proofs.«162088_j88587995447884_2_alg».proof.Proof.Gen.ReferenceIdeal
import proofs.«162088_j88587995447884_2_alg».proof.Proof.Gen.Pre_finite_inputs
import proofs.«162088_j88587995447884_2_alg».proof.Proof.Gen.ReferenceIdeal.Run
import proofs.«162088_j88587995447884_2_alg».proof.Proof.KernelValue
import proofs.«162088_j88587995447884_2_alg».proof.Proof.RefValue
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame: its run, with what it says of the results dropped. -/
theorem frame_ri : Cert.frame_ReferenceIdeal := fun m ρ _ =>
  (θ_run Cert.ReferenceIdeal.defs _ _).mono (fun _ h c => (h c).2.2) (Cert.ReferenceIdeal.RefValue.run m ρ)

/-- Both programs end with the hidden state, the hidden state again and the cell state of the specification, of
    arguments that agree. -/
theorem algebraic : Cert.algebraic_KernelIdeal_ReferenceIdeal := by
  intro m ρ m' ρ' _ hagree
  refine ⟨fun c => Cert.Lstm.HY (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.Lstm.HY (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.Lstm.CY (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1, (h c).1, (h c).2.1, (h c).2.2⟩)
      (Cert.KernelIdeal.Final.run m ρ)
  · refine (θ_run Cert.ReferenceIdeal.defs _ _).mono (fun _ h c => ⟨?_, ?_, ?_, (h c).2.2⟩)
      (Cert.ReferenceIdeal.RefValue.run m' ρ')
    · rw [(h c).1, (hagree c).1, (hagree c).2.1, (hagree c).2.2.1, (hagree c).2.2.2.1, (hagree c).2.2.2.2.1,
        (hagree c).2.2.2.2.2.1, (hagree c).2.2.2.2.2.2]
    · rw [(h c).1, (hagree c).1, (hagree c).2.1, (hagree c).2.2.1, (hagree c).2.2.2.1, (hagree c).2.2.2.2.1,
        (hagree c).2.2.2.2.2.1, (hagree c).2.2.2.2.2.2]
    · rw [(h c).2.1, (hagree c).1, (hagree c).2.1, (hagree c).2.2.1, (hagree c).2.2.2.1, (hagree c).2.2.2.2.1,
        (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
